-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_c_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_c_5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_c_11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000x128 : Shape := ⟨2, ![1600000, 128]⟩
abbrev S2x1600000 : Shape := ⟨2, ![2, 1600000]⟩
abbrev S512x256 : Shape := ⟨2, ![512, 256]⟩
abbrev S_ : Shape := ⟨0, ![]⟩
abbrev S1x256 : Shape := ⟨2, ![1, 256]⟩
abbrev S256 : Shape := ⟨1, ![256]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S512x256 : S_.BroadcastsInDim S512x256 (![] : Fin 0 → Fin S512x256.rank)
  reducesTo_S512x256_S_d0_1 : S512x256.ReducesTo [0, 1] S_
  slices_S512x256_S1x256_0_0 : S512x256.Slices ![0, 0] S1x256
  shapeCasts_S1x256_S256 : S1x256.ShapeCasts S256
  bcast_S_S256 : S_.BroadcastsInDim S256 (![] : Fin 0 → Fin S256.rank)
  reducesTo_S256_S_d0 : S256.ReducesTo [0] S_

variable [Facts]

def fn_part1 {F : FTy → Type} [FloatOps F] (main_arg3 : FVec F S512x256 .f32) (main_arg4 : FVec F S512x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S1x256 .f32 := (extractStridedSlice S1x256 ![0, 0] · slices_S512x256_S1x256_0_0) main_arg3
  let main_v20 : FVec F S256 .f32 := shapeCast S256 main_v19 shapeCasts_S1x256_S256
  let main_cst_6 : FVec F S_ .f32 := constant S_ .f32 0x00000000#32
  let main_v21 : FVec F S256 .f32 := broadcastInDim S256 ![] bcast_S_S256 main_cst_6
  let main_v22 : IVec S256 1 := cmpf .oeq main_v20 main_v21
  let main_c_7 : IVec S_ 1 := constantI S_ 1 1#1
  let main_v23 : IVec S_ 1 := (fun x v => Host.reduce IntOp.andi x v reducesTo_S256_S_d0 h_S_) main_v22 main_c_7
  let main_v24 : IVec S_ 1 := andi main_v18 main_v23
  let main_v25 : FVec F S1x256 .f32 := (extractStridedSlice S1x256 ![0, 0] · slices_S512x256_S1x256_0_0) main_arg4
  let main_v26 : FVec F S256 .f32 := shapeCast S256 main_v25 shapeCasts_S1x256_S256
  let main_cst_8 : FVec F S_ .f32 := constant S_ .f32 0x00000000#32
  let main_v27 : FVec F S256 .f32 := broadcastInDim S256 ![] bcast_S_S256 main_cst_8
  let main_v28 : IVec S256 1 := cmpf .oeq main_v26 main_v27
  let main_c_9 : IVec S_ 1 := constantI S_ 1 1#1
  let main_v29 : IVec S_ 1 := (fun x v => Host.reduce IntOp.andi x v reducesTo_S256_S_d0 h_S_) main_v28 main_c_9
  let main_v30 : IVec S_ 1 := andi main_v24 main_v29
  main_v30

def fn {F : FTy → Type} [FloatOps F] (main_arg0 : FVec F S100000x256 .f32) (main_arg1 : FVec F S1600000x128 .f32) (main_arg2 : IVec S2x1600000 32) (main_arg3 : FVec F S512x256 .f32) (main_arg4 : FVec F S512x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg3 main_arg4 main_v13 main_v16
-- ==== Kernel.lean ====
abbrev S100000x256 : Shape := ⟨2, ![100000, 256]⟩
abbrev S1600000x128 : Shape := ⟨2, ![1600000, 128]⟩
abbrev S2x1600000 : Shape := ⟨2, ![2, 1600000]⟩
abbrev S512x256 : Shape := ⟨2, ![512, 256]⟩
abbrev S1x1600000 : Shape := ⟨2, ![1, 1600000]⟩
abbrev S1600000 : Shape := ⟨1, ![1600000]⟩
abbrev S_ : Shape := ⟨0, ![]⟩
abbrev S1 : Shape := ⟨1, ![1]⟩
abbrev S1599999 : Shape := ⟨1, ![1599999]⟩
abbrev S100000 : Shape := ⟨1, ![100000]⟩
abbrev S1600000x1 : Shape := ⟨2, ![1600000, 1]⟩
abbrev S100000x1 : Shape := ⟨2, ![100000, 1]⟩
abbrev S4000x256 : Shape := ⟨2, ![4000, 256]⟩
abbrev S4000x1 : Shape := ⟨2, ![4000, 1]⟩
abbrev S1x512 : Shape := ⟨2, ![1, 512]⟩
abbrev S4000x512 : Shape := ⟨2, ![4000, 512]⟩

abbrev nBuf : Space → Nat
  | .hbm => 73
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1600000x128, .f32⟩
  | .hbm, ⟨2, _⟩ => ⟨S2x1600000, .i32⟩
  | .hbm, ⟨3, _⟩ => ⟨S512x256, .f32⟩
  | .hbm, ⟨4, _⟩ => ⟨S512x256, .f32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i1⟩
  | .hbm, ⟨15, _⟩ => ⟨S1, .i1⟩
  | .hbm, ⟨16, _⟩ => ⟨S1599999, .i32⟩
  | .hbm, ⟨17, _⟩ => ⟨S1599999, .i32⟩
  | .hbm, ⟨18, _⟩ => ⟨S1599999, .i1⟩
  | .hbm, ⟨19, _⟩ => ⟨S1600000, .i1⟩
  | .hbm, ⟨20, _⟩ => ⟨S1600000, .i32⟩
  | .hbm, ⟨21, _⟩ => ⟨S_, .i32⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S1600000, .i32⟩
  | .hbm, ⟨30, _⟩ => ⟨S1600000, .i32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S_, .i1⟩
  | .hbm, ⟨55, _⟩ => ⟨S1600000, .i1⟩
  | .hbm, ⟨56, _⟩ => ⟨S1600000, .i1⟩
  | .hbm, ⟨57, _⟩ => ⟨S1600000, .i1⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S_, .i32⟩
  | .hbm, ⟨62, _⟩ => ⟨S100000, .i32⟩
  | .hbm, ⟨63, _⟩ => ⟨S1600000x1, .i32⟩
  | .hbm, ⟨64, _⟩ => ⟨S100000, .i32⟩
  | .hbm, ⟨65, _⟩ => ⟨S_, .i32⟩
  | .hbm, ⟨66, _⟩ => ⟨S100000, .i32⟩
  | .hbm, ⟨67, _⟩ => ⟨S1600000x1, .i32⟩
  | .hbm, ⟨68, _⟩ => ⟨S100000, .i32⟩
  | .hbm, ⟨69, _⟩ => ⟨S100000x1, .i32⟩
  | .hbm, ⟨70, _⟩ => ⟨S100000x1, .i32⟩
  | .hbm, ⟨71, _⟩ => ⟨S100000x256, .f32⟩
  | .hbm, ⟨72, _⟩ => ⟨S_, .i32⟩
  | .local _ .vmem, ⟨0, _⟩ => ⟨S4000x256, .f32⟩
  | .local _ .vmem, ⟨1, _⟩ => ⟨S4000x256, .f32⟩
  | .local _ .vmem, ⟨2, _⟩ => ⟨S4000x1, .i32⟩
  | .local _ .vmem, ⟨3, _⟩ => ⟨S4000x1, .i32⟩
  | .local _ .vmem, ⟨4, _⟩ => ⟨S4000x1, .i32⟩
  | .local _ .vmem, ⟨5, _⟩ => ⟨S4000x1, .i32⟩
  | .local _ .vmem, ⟨6, _⟩ => ⟨S512x256, .f32⟩
  | .local _ .vmem, ⟨7, _⟩ => ⟨S512x256, .f32⟩
  | .local _ .vmem, ⟨8, _⟩ => ⟨S4000x256, .f32⟩
  | .local _ .vmem, ⟨9, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v14 : Ref sig .tc := ⟨.hbm, 38, rfl⟩
abbrev main_c_2 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_1 : Ref sig .tc := ⟨.hbm, 47, rfl⟩
abbrev main_call2_v5 : Ref sig .tc := ⟨.hbm, 48, rfl⟩
abbrev main_call2_v6 : Ref sig .tc := ⟨.hbm, 49, rfl⟩
abbrev main_call2_c_2 : Ref sig .tc := ⟨.hbm, 50, rfl⟩
abbrev main_call2_v7 : Ref sig .tc := ⟨.hbm, 51, rfl⟩
abbrev main_call2_v8 : Ref sig .tc := ⟨.hbm, 52, rfl⟩
abbrev main_call2_c_3 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_v15 : Ref sig .tc := ⟨.hbm, 60, rfl⟩
abbrev main_c_3 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_c_4 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_5 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  slices_S2x1600000_S1x1600000_1_0 : S2x1600000.Slices ![1, 0] S1x1600000
  bcast_S_S1 : S_.BroadcastsInDim S1 (![] : Fin 0 → Fin S1.rank)
  slices_S1600000_S1599999_1 : S1600000.Slices ![1] S1599999
  slices_S1600000_S1599999_0 : S1600000.Slices ![0] S1599999
  concatenates_S1_S1599999_S1600000_d0 : Shape.Concatenates [S1, S1599999] S1600000 0
  natLt_1_32 : 1 < 32
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x512_d1_w32 : S1x512.Iotas .tc 32 [1]
  broadcasts_S4000x1_S4000x512 : S4000x1.Broadcasts S4000x512
  broadcasts_S1x512_S4000x512 : S1x512.Broadcasts S4000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S4000x256_S4000x256_0_0 : ∀ a, (![0, 0] : Fin 2 → Nat) a + S4000x256.size a ≤ S4000x256.size a
  h_S4000x256 : 0 < S4000x256.numel
  scatter_S100000_S1600000x1_S1600000_n_0_0_1_wf : ScatterDims.WF S100000 S1600000x1 S1600000 [] [0] [0] 1
  dot_S4000x512_S512x256_S4000x256_1_0_0_1_n_n_wf : DotDims.WF S4000x512 S512x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .i32 = 32 ∨ (Rect.block (s := S100000x1) S4000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .i32 = 32 ∨ (Rect.block (s := S100000x1) S4000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .f32 = 32 ∨ (Rect.block (s := S100000x256) S4000x256.size (cc0_transform_5 i) (hinb0_5 i)).WholeWords (EltTy.packing .f32)

variable [Facts₀]

def comparator_i32_d0 : BitVec 32 → BitVec 32 → BitVec 1 :=
  fun l r =>
    let v1 := IntOp.cmpi .slt l r
    v1
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S1600000x128 : Shape := ⟨2, ![1600000, 128]⟩
abbrev S2x1600000 : Shape := ⟨2, ![2, 1600000]⟩
abbrev S512x256 : Shape := ⟨2, ![512, 256]⟩
abbrev S1x1600000 : Shape := ⟨2, ![1, 1600000]⟩
abbrev S1600000 : Shape := ⟨1, ![1600000]⟩
abbrev S_ : Shape := ⟨0, ![]⟩
abbrev S1 : Shape := ⟨1, ![1]⟩
abbrev S1599999 : Shape := ⟨1, ![1599999]⟩
abbrev S100000 : Shape := ⟨1, ![100000]⟩
abbrev S1600000x1 : Shape := ⟨2, ![1600000, 1]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000x128, .f32⟩
  | .hbm, ⟨2, _⟩ => ⟨S2x1600000, .i32⟩
  | .hbm, ⟨3, _⟩ => ⟨S512x256, .f32⟩
  | .hbm, ⟨4, _⟩ => ⟨S512x256, .f32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i1⟩
  | .hbm, ⟨15, _⟩ => ⟨S1, .i1⟩
  | .hbm, ⟨16, _⟩ => ⟨S1599999, .i32⟩
  | .hbm, ⟨17, _⟩ => ⟨S1599999, .i32⟩
  | .hbm, ⟨18, _⟩ => ⟨S1599999, .i1⟩
  | .hbm, ⟨19, _⟩ => ⟨S1600000, .i1⟩
  | .hbm, ⟨20, _⟩ => ⟨S1600000, .i32⟩
  | .hbm, ⟨21, _⟩ => ⟨S_, .i32⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S1600000, .i32⟩
  | .hbm, ⟨30, _⟩ => ⟨S1600000, .i32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S_, .i1⟩
  | .hbm, ⟨55, _⟩ => ⟨S1600000, .i1⟩
  | .hbm, ⟨56, _⟩ => ⟨S1600000, .i1⟩
  | .hbm, ⟨57, _⟩ => ⟨S1600000, .i1⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S_, .i32⟩
  | .hbm, ⟨62, _⟩ => ⟨S100000, .i32⟩
  | .hbm, ⟨63, _⟩ => ⟨S1600000x1, .i32⟩
  | .hbm, ⟨64, _⟩ => ⟨S100000, .i32⟩
  | .hbm, ⟨65, _⟩ => ⟨S_, .i32⟩
  | .hbm, ⟨66, _⟩ => ⟨S100000, .i32⟩
  | .hbm, ⟨67, _⟩ => ⟨S1600000x1, .i32⟩
  | .hbm, ⟨68, _⟩ => ⟨S100000, .i32⟩
  | .hbm, ⟨69, _⟩ => ⟨S_, .i32⟩
  | .hbm, ⟨70, _⟩ => ⟨S100000, .i32⟩
  | .hbm, ⟨71, _⟩ => ⟨S100000, .i1⟩
  | .hbm, ⟨72, _⟩ => ⟨S_, .i32⟩
  | .hbm, ⟨73, _⟩ => ⟨S100000, .i32⟩
  | .hbm, ⟨74, _⟩ => ⟨S100000, .i32⟩
  | .hbm, ⟨75, _⟩ => ⟨S100000, .i32⟩
  | .hbm, ⟨76, _⟩ => ⟨S100000x1, .i32⟩
  | .hbm, ⟨77, _⟩ => ⟨S100000x256, .f32⟩
  | .hbm, ⟨78, _⟩ => ⟨S_, .i32⟩
  | .hbm, ⟨79, _⟩ => ⟨S100000, .i32⟩
  | .hbm, ⟨80, _⟩ => ⟨S100000, .i1⟩
  | .hbm, ⟨81, _⟩ => ⟨S100000x1, .i1⟩
  | .hbm, ⟨82, _⟩ => ⟨S100000x1, .f32⟩
  | .hbm, ⟨83, _⟩ => ⟨S100000x256, .f32⟩
  | .hbm, ⟨84, _⟩ => ⟨S100000x256, .f32⟩
  | .hbm, ⟨85, _⟩ => ⟨S_, .i32⟩
  | .hbm, ⟨86, _⟩ => ⟨S100000, .i32⟩
  | .hbm, ⟨87, _⟩ => ⟨S100000, .i1⟩
  | .hbm, ⟨88, _⟩ => ⟨S_, .i32⟩
  | .hbm, ⟨89, _⟩ => ⟨S100000, .i32⟩
  | .hbm, ⟨90, _⟩ => ⟨S100000, .i32⟩
  | .hbm, ⟨91, _⟩ => ⟨S100000, .i32⟩
  | .hbm, ⟨92, _⟩ => ⟨S100000x1, .i32⟩
  | .hbm, ⟨93, _⟩ => ⟨S100000x256, .f32⟩
  | .hbm, ⟨94, _⟩ => ⟨S_, .i32⟩
  | .hbm, ⟨95, _⟩ => ⟨S100000, .i32⟩
  | .hbm, ⟨96, _⟩ => ⟨S100000, .i1⟩
  | .hbm, ⟨97, _⟩ => ⟨S100000x1, .i1⟩
  | .hbm, ⟨98, _⟩ => ⟨S100000x1, .f32⟩
  | .hbm, ⟨99, _⟩ => ⟨S100000x256, .f32⟩
  | .hbm, ⟨100, _⟩ => ⟨S100000x256, .f32⟩
  | .hbm, ⟨101, _⟩ => ⟨S100000x256, .f32⟩
  | .hbm, ⟨102, _⟩ => ⟨S100000x256, .f32⟩
  | .hbm, ⟨103, _⟩ => ⟨S_, .i32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v14 : Ref sig .tc := ⟨.hbm, 38, rfl⟩
abbrev main_c_2 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_1 : Ref sig .tc := ⟨.hbm, 47, rfl⟩
abbrev main_call2_v5 : Ref sig .tc := ⟨.hbm, 48, rfl⟩
abbrev main_call2_v6 : Ref sig .tc := ⟨.hbm, 49, rfl⟩
abbrev main_call2_c_2 : Ref sig .tc := ⟨.hbm, 50, rfl⟩
abbrev main_call2_v7 : Ref sig .tc := ⟨.hbm, 51, rfl⟩
abbrev main_call2_v8 : Ref sig .tc := ⟨.hbm, 52, rfl⟩
abbrev main_call2_c_3 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_v15 : Ref sig .tc := ⟨.hbm, 60, rfl⟩
abbrev main_c_3 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_c_4 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_c_5 : Ref sig .tc := ⟨.hbm, 69, rfl⟩
abbrev main_v22 : Ref sig .tc := ⟨.hbm, 70, rfl⟩
abbrev main_v23 : Ref sig .tc := ⟨.hbm, 71, rfl⟩
abbrev main_c_6 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_c_7 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_8 : Ref sig .tc := ⟨.hbm, 85, rfl⟩
abbrev main_v35 : Ref sig .tc := ⟨.hbm, 86, rfl⟩
abbrev main_v36 : Ref sig .tc := ⟨.hbm, 87, rfl⟩
abbrev main_c_9 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_c_10 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_c_11 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  slices_S2x1600000_S1x1600000_1_0 : S2x1600000.Slices ![1, 0] S1x1600000
  bcast_S_S1 : S_.BroadcastsInDim S1 (![] : Fin 0 → Fin S1.rank)
  slices_S1600000_S1599999_1 : S1600000.Slices ![1] S1599999
  slices_S1600000_S1599999_0 : S1600000.Slices ![0] S1599999
  concatenates_S1_S1599999_S1600000_d0 : Shape.Concatenates [S1, S1599999] S1600000 0
  natLt_1_32 : 1 < 32
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  scatter_S100000_S1600000x1_S1600000_n_0_0_1_wf : ScatterDims.WF S100000 S1600000x1 S1600000 [] [0] [0] 1
  gather_S512x256_S100000x1_S100000x256_1_0_n_n_0_1_1256_wf : GatherDims.WF S512x256 S100000x1 S100000x256 [1] [0] [] [0] [] 1 ![1, 256]

variable [Facts₀]

def comparator_i32_d0 : BitVec 32 → BitVec 32 → BitVec 1 :=
  fun l r =>
    let v1 := IntOp.cmpi .slt l r
    v1
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S512x256_S100000x1_S100000x256_1_0_n_n_0_1_1256 : GatherDims S512x256 S100000x1 S100000x256 where
  offsetDims := [1]
  collapsedSliceDims := [0]
  operandBatchingDims := []
  startIndicesBatchingDims := []
  startIndexMap := [0]
  indexVectorDim := 1
  sliceSizes := ![1, 256]
  wf := gather_S512x256_S100000x1_S100000x256_1_0_n_n_0_1_1256_wf

class Facts : Prop extends Facts₀ where

variable [Facts]
-- ==== Proof.KernelPay.lean ====
import proofs.«124862_j63299228009184_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! The body's one store, read entry by entry over the extended reals.

Row `p` of a block carries two 32-bit degrees. Each is clipped into `[0, 511]`, compared with the column
numbers `0 … 511` to give a row of zeros with a single one, and that row is multiplied into a `512 × 256`
table: the product's entry `(p, q)` is a sum over `k` of (one if `k` is the clipped degree, else zero) times the
table's entry `(k, q)`. The stored value is the block of `x` plus the two products. -/

noncomputable section

namespace Cert.KernelIdeal.Pay

open Idealize.ShloMosaic Idealize.ShloMosaic.ValueIdx Cert.KernelIdeal Cert.KernelIdeal.Gen

/-- A column `[a, 1]` spread over `b` columns reads, at `(p, k)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The degree clipped into the table's rows: at least zero, at most 511 (signed). -/
def clip (d : BitVec 32) : BitVec 32 := IntOp.minsi 511#32 (IntOp.maxsi 0#32 d)

/-- One entry of the zero-one row: the comparison's bit widened to a word and read as a number. -/
def hot (d : BitVec 32) (k : Fin 512) : EReal :=
  FloatOps.sitofp (F := Ideal) .f32 ((IntOp.cmpi .eq (clip d) (BitVec.ofNat 32 k.val)).setWidth 32)

/-- The zero-one matrix built from a column of degrees, at `(p, k)`. -/
theorem onehot_apply (v : IVec S4000x1 32) (p : Fin 4000) (k : Fin 512) :
    (sitofp (F := Ideal) .f32 (extui 32 (cmpi .eq
        (broadcastTo S4000x512 (minsi (broadcast S4000x1 511#32) (maxsi (broadcast S4000x1 0#32) v)) broadcasts_S4000x1_S4000x512)
        (broadcastTo S4000x512 (iota .tc S1x512 32 [1] iota_S1x512_d1_w32) broadcasts_S1x512_S4000x512)) natLt_1_32)
      : FVec Ideal S4000x512 .f32) (ix2 p k) = hot (v (ix2 p (0 : Fin 1))) k := by
  show FloatOps.sitofp (F := Ideal) .f32 ((IntOp.cmpi .eq
      (broadcastTo S4000x512 (minsi (broadcast S4000x1 511#32) (maxsi (broadcast S4000x1 0#32) v)) broadcasts_S4000x1_S4000x512 (ix2 p k))
      (broadcastTo S4000x512 (iota .tc S1x512 32 [1] iota_S1x512_d1_w32) broadcasts_S1x512_S4000x512 (ix2 p k))).setWidth 32) = _
  rw [broadcastTo_a1_ab_apply, broadcastTo_1b_ab_apply, iota_single_apply]
  rfl

/-- The matrix product's dimension numbers: contract the left factor's columns with the right factor's rows. -/
abbrev D := dot_S4000x512_S512x256_S4000x256_1_0_0_1_n_n

theorem lhs_0 (j : S4000x256.Idx) (k : D.contr.Idx) : (D.lhsIdx j k 0 : ℕ) = j 0 := by
  simp [DotDims.lhsIdx, D, dot_S4000x512_S512x256_S4000x256_1_0_0_1_n_n]; rfl
theorem lhs_1 (j : S4000x256.Idx) (k : D.contr.Idx) : (D.lhsIdx j k 1 : ℕ) = k ⟨0, by decide⟩ := by
  simp [DotDims.lhsIdx, D, dot_S4000x512_S512x256_S4000x256_1_0_0_1_n_n]; rfl
theorem rhs_0 (j : S4000x256.Idx) (k : D.contr.Idx) : (D.rhsIdx j k 0 : ℕ) = k ⟨0, by decide⟩ := by
  simp [DotDims.rhsIdx, D, dot_S4000x512_S512x256_S4000x256_1_0_0_1_n_n]; rfl
theorem rhs_1 (j : S4000x256.Idx) (k : D.contr.Idx) : (D.rhsIdx j k 1 : ℕ) = j 1 := by
  simp [DotDims.rhsIdx, D, dot_S4000x512_S512x256_S4000x256_1_0_0_1_n_n]; rfl

/-- The contraction index is one number below 512. -/
abbrev ce : D.contr.Idx ≃ Fin 512 := contrEquiv1 D 512 rfl rfl

/-- A product into the zero accumulator, at `(p, q)`: the sum over `k` of left `(p, k)` times right `(k, q)`. -/
theorem matmul_apply (A : FVec Ideal S4000x512 .bf16) (B : FVec Ideal S512x256 .bf16) (p : Fin 4000) (q : Fin 256) :
    FloatOps.matmul D none A B (constant S4000x256 .f32 0x00000000#32) (ix2 p q)
      = ∑ k : Fin 512, A (ix2 p k) * B (ix2 k q) := by
  rw [Ideal.matmul_constant_zero_apply, ← Equiv.sum_comp ce.symm]
  refine Finset.sum_congr rfl fun k _ => ?_
  have hl : D.lhsIdx (ix2 p q) (ce.symm k) = ix2 p k := by
    funext a; apply Fin.ext
    match a with
    | ⟨0, _⟩ => exact lhs_0 _ _
    | ⟨1, _⟩ => exact (lhs_1 _ _).trans (contrEquiv1_symm_val D 512 rfl rfl k)
  have hr : D.rhsIdx (ix2 p q) (ce.symm k) = ix2 k q := by
    funext a; apply Fin.ext
    match a with
    | ⟨0, _⟩ => exact (rhs_0 _ _).trans (contrEquiv1_symm_val D 512 rfl rfl k)
    | ⟨1, _⟩ => exact rhs_1 _ _
  rw [hl, hr]

/-- THE STORED VALUE at `(p, q)`: `x` there, plus each table's rows weighted by that row's zero-one entries. -/
theorem pay_apply (v0 v6 : Vec Ideal S4000x1 .i32) (v25 v27 : Vec Ideal S512x256 .f32) (v31 : Vec Ideal S4000x256 .f32)
    (p : Fin 4000) (q : Fin 256) :
    k0_pay1 (F := Ideal) v0 v6 v25 v27 v31 (ix2 p q)
      = (v31 (ix2 p q) + ∑ k : Fin 512, hot (v0 (ix2 p (0 : Fin 1))) k * v25 (ix2 k q))
          + ∑ k : Fin 512, hot (v6 (ix2 p (0 : Fin 1))) k * v27 (ix2 k q) := by
  unfold k0_pay1
  simp only [matmul, shapeCast_self]
  rw [addf_apply, addf_apply, matmul_apply, matmul_apply]
  simp only [truncf_apply]
  refine congrArg₂ (· + ·) (congrArg (v31 (ix2 p q) + ·) (Finset.sum_congr rfl fun k _ => ?_)) (Finset.sum_congr rfl fun k _ => ?_)
  · exact congrArg (· * v25 (ix2 k q)) (onehot_apply v0 p k)
  · exact congrArg (· * v27 (ix2 k q)) (onehot_apply v6 p k)

end Cert.KernelIdeal.Pay

end
-- ==== Proof.KernelValue.lean ====
import proofs.«124862_j63299228009184_1_alg».proof.Proof.Gen.KernelIdeal.Frame
import proofs.«124862_j63299228009184_1_alg».proof.Proof.KernelPay
import Idealize.ShloMosaic.Lib.Pipeline.Value

/-! The kernel's output array after the run, as one function of the arrays the region finds.

The grid has 25 points; point `t` reads rows `4000 t … 4000 t + 3999` of `x` and of the two degree columns, and
both tables whole, and writes the same rows of the output. So entry `(r, q)` of the output is `x (r, q)` plus,
for each table, the sum over `k` of the zero-one entry of row `r`'s clipped degree at `k` times the table's `(k, q)`. -/

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pay

variable (m : (ℓ : Loc nD τ sig) → Buf (Elt Ideal) ℓ) (ρ : Dev nD → PrngReg)

theorem hz : (![0, 0] : Fin 2 → Nat) = fun _ => 0 := funext fun a => by fin_cases a <;> rfl

/-- The row and the column of an entry of a `100000 × 256` array, as plain numbers below the extents. -/
def row (i : S100000x256.Idx) : Fin 100000 := ⟨(i 0).val, idx2_lt0 i⟩
def col (i : S100000x256.Idx) : Fin 256 := ⟨(i 1).val, idx2_lt1 i⟩

/-- What the output holds: `x` plus, per table, that table's rows weighted by the row's zero-one entries. -/
def W (x : S100000x256.Idx → EReal) (din dout : S100000x1.Idx → BitVec 32) (tin tout : S512x256.Idx → EReal) :
    S100000x256.Idx → EReal := fun i =>
  (x i + ∑ k : Fin 512, hot (din (ix2 (row i) (0 : Fin 1))) k * tin (ix2 k (col i)))
    + ∑ k : Fin 512, hot (dout (ix2 (row i) (0 : Fin 1))) k * tout (ix2 k (col i))

/-- The printed index maps over the grid: `x`, the degree columns and the output move together down the rows; the
    tables stay at block zero. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = win0_5.index t (0 : Fin 2)
    ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every block of rows is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-! The windows' blocks at point `t`, as positions in their arrays: a block's coordinate is always the block index
times the block's extent plus the coordinate inside the block. -/

theorem emb_x (t : Fin cfg0.N) (p : Fin 4000) (q : Fin 256) :
    ((cfg0.win 0).blk t).view.emb (ix2 p q) = ((cfg0.win 5).blk t).view.emb (ix2 p q) := by
  obtain ⟨e0, e1, e2, e3, e4, e5, e6, e7, e8, e9, e10, e11⟩ := idx_facts t
  funext a; apply Fin.ext
  match a with
  | ⟨0, _⟩ => show win0_0.index t (0 : Fin 2) * 4000 + 1 * p.val = win0_5.index t (0 : Fin 2) * 4000 + 1 * p.val; omega
  | ⟨1, _⟩ => show win0_0.index t (1 : Fin 2) * 256 + 1 * q.val = win0_5.index t (1 : Fin 2) * 256 + 1 * q.val; omega

theorem emb_din (t : Fin cfg0.N) (p : Fin 4000) (q : Fin 256) :
    ((cfg0.win 1).blk t).view.emb (ix2 p (0 : Fin 1)) = ix2 (row (((cfg0.win 5).blk t).view.emb (ix2 p q))) (0 : Fin 1) := by
  obtain ⟨e0, e1, e2, e3, e4, e5, e6, e7, e8, e9, e10, e11⟩ := idx_facts t
  funext a; apply Fin.ext
  match a with
  | ⟨0, _⟩ => show win0_1.index t (0 : Fin 2) * 4000 + 1 * p.val = win0_5.index t (0 : Fin 2) * 4000 + 1 * p.val; omega
  | ⟨1, _⟩ => show win0_1.index t (1 : Fin 2) * 1 + 1 * 0 = 0; omega

theorem emb_dout (t : Fin cfg0.N) (p : Fin 4000) (q : Fin 256) :
    ((cfg0.win 2).blk t).view.emb (ix2 p (0 : Fin 1)) = ix2 (row (((cfg0.win 5).blk t).view.emb (ix2 p q))) (0 : Fin 1) := by
  obtain ⟨e0, e1, e2, e3, e4, e5, e6, e7, e8, e9, e10, e11⟩ := idx_facts t
  funext a; apply Fin.ext
  match a with
  | ⟨0, _⟩ => show win0_2.index t (0 : Fin 2) * 4000 + 1 * p.val = win0_5.index t (0 : Fin 2) * 4000 + 1 * p.val; omega
  | ⟨1, _⟩ => show win0_2.index t (1 : Fin 2) * 1 + 1 * 0 = 0; omega

theorem emb_tin (t : Fin cfg0.N) (p : Fin 4000) (q : Fin 256) (k : Fin 512) :
    ((cfg0.win 3).blk t).view.emb (ix2 k q) = ix2 k (col (((cfg0.win 5).blk t).view.emb (ix2 p q))) := by
  obtain ⟨e0, e1, e2, e3, e4, e5, e6, e7, e8, e9, e10, e11⟩ := idx_facts t
  funext a; apply Fin.ext
  match a with
  | ⟨0, _⟩ => show win0_3.index t (0 : Fin 2) * 512 + 1 * k.val = k.val; omega
  | ⟨1, _⟩ => show win0_3.index t (1 : Fin 2) * 256 + 1 * q.val = win0_5.index t (1 : Fin 2) * 256 + 1 * q.val; omega

theorem emb_tout (t : Fin cfg0.N) (p : Fin 4000) (q : Fin 256) (k : Fin 512) :
    ((cfg0.win 4).blk t).view.emb (ix2 k q) = ix2 k (col (((cfg0.win 5).blk t).view.emb (ix2 p q))) := by
  obtain ⟨e0, e1, e2, e3, e4, e5, e6, e7, e8, e9, e10, e11⟩ := idx_facts t
  funext a; apply Fin.ext
  match a with
  | ⟨0, _⟩ => show win0_4.index t (0 : Fin 2) * 512 + 1 * k.val = k.val; omega
  | ⟨1, _⟩ => show win0_4.index t (1 : Fin 2) * 256 + 1 * q.val = win0_5.index t (1 : Fin 2) * 256 + 1 * q.val; omega

set_option maxHeartbeats 400000 in
/-- The stored value over point `t`'s blocks of ANY five arrays is block `t` of `W` of those arrays. -/
theorem block_eq (A0 : S100000x256.Idx → EReal) (A1 A2 : S100000x1.Idx → BitVec 32) (A3 A4 : S512x256.Idx → EReal) (t : Fin cfg0.N) :
    k0_pay1 (F := Ideal) (((cfg0.win 1).blk t).view.read (Elt Ideal) A1) (((cfg0.win 2).blk t).view.read (Elt Ideal) A2)
        (((cfg0.win 3).blk t).view.read (Elt Ideal) A3) (((cfg0.win 4).blk t).view.read (Elt Ideal) A4)
        (((cfg0.win 0).blk t).view.read (Elt Ideal) A0)
      = ((cfg0.win 5).blk t).view.read (Elt Ideal) (W A0 A1 A2 A3 A4) := by
  funext j
  obtain ⟨p, q, rfl⟩ : ∃ (p : Fin 4000) (q : Fin 256), j = ix2 p q := ⟨j 0, j 1, eq_ix2 j⟩
  rw [pay_apply]
  show (A0 (((cfg0.win 0).blk t).view.emb (ix2 p q))
          + ∑ k : Fin 512, hot (A1 (((cfg0.win 1).blk t).view.emb (ix2 p (0 : Fin 1)))) k * A3 (((cfg0.win 3).blk t).view.emb (ix2 k q)))
        + ∑ k : Fin 512, hot (A2 (((cfg0.win 2).blk t).view.emb (ix2 p (0 : Fin 1)))) k * A4 (((cfg0.win 4).blk t).view.emb (ix2 k q))
      = W A0 A1 A2 A3 A4 (((cfg0.win 5).blk t).view.emb (ix2 p q))
  unfold W
  rw [emb_x t p q, emb_din t p q, emb_dout t p q]
  simp only [emb_tin t p q, emb_tout t p q]

set_option maxHeartbeats 400000 in
/-- WHAT POINT `t` WRITES BACK is block `t` of `W` of the five arrays as the region finds them. -/
theorem flushed_eq (c : Dev nD) (t : Fin cfg0.N) :
    (dats m 0 c).flushed 5 t = ((cfg0.win 5).blk t).view.read (Elt Ideal)
      (W (V m c (Pipeline.arrRef spec0 0)) (V m c (Pipeline.arrRef spec0 1)) (V m c (Pipeline.arrRef spec0 2))
        (V m c (Pipeline.arrRef spec0 3)) (V m c (Pipeline.arrRef spec0 4))) := by
  show (cfg0.win 5).cut (grid0.coords t) ((dats m 0 c).after 5 t) = _
  rw [after0_5]
  unfold out0_5
  rw [View.canon_unit_zero hz]
  simp only [View.ld_unit_zero (S := S4000x1) hz, View.ld_unit_zero (S := S512x256) hz, View.ld_unit_zero (S := S4000x256) hz]
  unfold iblk
  generalize V m c (Pipeline.arrRef spec0 0) = A0
  generalize V m c (Pipeline.arrRef spec0 1) = A1
  generalize V m c (Pipeline.arrRef spec0 2) = A2
  generalize V m c (Pipeline.arrRef spec0 3) = A3
  generalize V m c (Pipeline.arrRef spec0 4) = A4
  exact block_eq A0 A1 A2 A3 A4 t

/-- An entry of the array is in point `t`'s block iff each coordinate is in the block's range on its axis. -/
theorem mem_blk (t : Fin cfg0.N) (i : S100000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v24).slice (win0_5.rect t)).set ↔ _
  rw [View.set_slice_whole, Rect.mem_set_unit]
  exact Iff.rfl

/-- The blocks tile the array: row `r` is in the block of point `r / 4000`. -/
theorem cover (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  obtain ⟨t, ht⟩ := idx_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 256 ≤ (i 1).val ∧ (i 1).val < win0_5.index t (1 : Fin 2) * 256 + 256; omega

/-- THE OUTPUT ARRAY after the run: `W` of the five arrays as the region finds them. -/
theorem final (c : Dev nD) : (dats m 0 c).arrAt 5 cfg0.N
    = W (V m c (Pipeline.arrRef spec0 0)) (V m c (Pipeline.arrRef spec0 1)) (V m c (Pipeline.arrRef spec0 2))
        (V m c (Pipeline.arrRef spec0 3)) (V m c (Pipeline.arrRef spec0 4)) :=
  (dats m 0 c).arrAt_eq_of_cover 5 _ (fun t _ => flushed_eq m c t) (fun i => cover i)

end Cert.KernelIdeal.KValue

end
-- ==== Proof.KernelRun.lean ====
import proofs.«124862_j63299228009184_1_alg».proof.Proof.KernelValue
import Idealize.ShloMosaic.Lib.StableHlo.Run

/-! The kernel program's run, read: what its two results hold when every execution has ended.

Before the region the host computes the two degree arrays and lays each out as a column; after the region it writes
one constant. So the first result is `W` of `x`, the two degree columns and the two tables as launched, and the
second result is the constant zero. -/

set_option maxRecDepth 16384

noncomputable section

namespace Cert.KernelIdeal.KRun

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.KValue

variable (m : (ℓ : Loc nD τ sig) → Buf (Elt Ideal) ℓ) (ρ : Dev nD → PrngReg)

/-- Running one list of host operations after another is running their concatenation. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The host operations before the region, up to the two degree arrays (everything but the two final re-layouts). -/
abbrev preOps : List (HloOp τ sig (Elt Ideal)) :=
  hostOps0 ++ hostOps0_1 ++ hostOps0_2 ++ hostOps0_3 ++ hostOps0_4 ++ hostOps0_5 ++ hostOps0_6.take 8

/-- The two re-layouts: each degree array `[100000]` as a column `[100000, 1]`. -/
abbrev colOps : List (HloOp τ sig (Elt Ideal)) :=
  [ StableHlo.reshape main_v18 main_v22 rfl shapeCasts_S100000_S100000x1,
    StableHlo.reshape main_v21 main_v23 rfl shapeCasts_S100000_S100000x1 ]

theorem flat_split : List.flatten [hostOps0, hostOps0_1, hostOps0_2, hostOps0_3, hostOps0_4, hostOps0_5, hostOps0_6]
    = (preOps ++ colOps : List (HloOp τ sig (Elt Ideal))) := rfl

/-- The degree arrays the kernel program computes on core `c`, from the memory as launched. -/
def degIn (c : Dev nD) : IVec S100000 32 := after preOps (fun b => m (c, b)) (Proc.devRef .tc main_v18)
def degOut (c : Dev nD) : IVec S100000 32 := after preOps (fun b => m (c, b)) (Proc.devRef .tc main_v21)

theorem V0_split (c : Dev nD) : V0 m c = after colOps (after preOps (fun b => m (c, b))) := by
  show after (List.flatten [hostOps0, hostOps0_1, hostOps0_2, hostOps0_3, hostOps0_4, hostOps0_5, hostOps0_6]) (fun b => m (c, b)) = _
  rw [flat_split, after_app]

/-- The first degree column the region finds is the first degree array, re-laid as a column. -/
theorem V_v22 (c : Dev nD) : V m c main_v22 = shapeCast S100000x1 (degIn m c) shapeCasts_S100000_S100000x1 := by
  show V0 m c (Proc.devRef .tc main_v22) = _
  rw [V0_split]
  unfold degIn
  generalize after preOps (fun b => m (c, b)) = X
  after_results
  rfl

theorem V_v23 (c : Dev nD) : V m c main_v23 = shapeCast S100000x1 (degOut m c) shapeCasts_S100000_S100000x1 := by
  show V0 m c (Proc.devRef .tc main_v23) = _
  rw [V0_split]
  unfold degOut
  generalize after preOps (fun b => m (c, b)) = X
  after_results
  rfl

/-- THE OUTPUT ARRAY after the run, over the memory as launched. -/
theorem finalK (c : Dev nD) : (dats m 0 c).arrAt 5 cfg0.N
    = W (m ((c : Thread nD τ).loc main_arg0)) (shapeCast S100000x1 (degIn m c) shapeCasts_S100000_S100000x1)
        (shapeCast S100000x1 (degOut m c) shapeCasts_S100000_S100000x1)
        (m ((c : Thread nD τ).loc main_arg3)) (m ((c : Thread nD τ).loc main_arg4)) := by
  have e0 : V m c (Pipeline.arrRef spec0 0) = m ((c : Thread nD τ).loc main_arg0) := V_main_arg0 m c
  have e1 : V m c (Pipeline.arrRef spec0 1) = shapeCast S100000x1 (degIn m c) shapeCasts_S100000_S100000x1 := V_v22 m c
  have e2 : V m c (Pipeline.arrRef spec0 2) = shapeCast S100000x1 (degOut m c) shapeCasts_S100000_S100000x1 := V_v23 m c
  have e3 : V m c (Pipeline.arrRef spec0 3) = m ((c : Thread nD τ).loc main_arg3) := V_main_arg3 m c
  have e4 : V m c (Pipeline.arrRef spec0 4) = m ((c : Thread nD τ).loc main_arg4) := V_main_arg4 m c
  rw [final, e0, e1, e2, e3, e4]

/-- The one host operation after the region writes the constant zero. -/
theorem tail_c5 (c : Dev nD) :
    Pipeline.afterTail₀ cfgs (dats m) 0 (V0 m) [hostOps1] c main_c_5 = constantI S_ 32 0#32 := by
  unfold Pipeline.afterTail₀
  show StableHlo.after hostOps1 _ (Proc.devRef .tc main_c_5) = _
  after_results

/-- THE RUN, READ: every execution ends with the first result at `W` of the launched arrays and the degree
    columns, the second at zero, and the arguments unchanged. -/
theorem run : θ_run defs (onTc (τ := τ) (main (F := Ideal))) ⟨m, fun _ => 0, ρ⟩ fun r => ∀ c : Dev nD,
      r.2.mem ((c.tc : Thread nD τ).loc main_v24)
          = W (m ((c : Thread nD τ).loc main_arg0)) (shapeCast S100000x1 (degIn m c) shapeCasts_S100000_S100000x1)
              (shapeCast S100000x1 (degOut m c) shapeCasts_S100000_S100000x1)
              (m ((c : Thread nD τ).loc main_arg3)) (m ((c : Thread nD τ).loc main_arg4))
      ∧ r.2.mem ((c.tc : Thread nD τ).loc main_c_5) = constantI S_ 32 0#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (finalK m c),
      ((h c).2 main_c_5 (Pipeline.mem_restRefs_of main_c_5 (by decide) (by decide))).trans (tail_c5 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.KRun

end
-- ==== Proof.RefRun.lean ====
/-
  The reference program's run.

  @main of the reference calls three outlined functions (a stable sort, a floor division and a remainder, the
  last two calling a select helper each). A call means its callee's body substituted at the call site, each
  value of the body in a buffer of its own (the call's record). So @main is one straight line of ninety-nine
  host operations: the first sixty-four compute, from the edge list, the two integer degree arrays (one row of
  the edge list times the node count plus the other row, sorted; the mask of first occurrences; quotient and
  remainder by the node count; two scatter-adds of the mask); the next thirty-two look both tables up at the
  degrees (a negative index wrapped by the table's height, the gather, the mask "degree positive" converted to
  a float and broadcast, the product); the last three add the two looked-up arrays to the first argument and
  produce the scalar zero returned beside the result.

  Every buffer of the TensorCore ends at the fold of those operations over the launch contents
  (`StableHlo.after ops`), for any float values and from any memory with zero counters (`run_main`).
-/
import proofs.«124862_j63299228009184_1_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem
open Cert.ReferenceIdeal Cert.ReferenceIdeal.Gen

variable {F : FTy → Type} [FloatOps F]

/-- @main's operations in order, the calls unfolded: eight of @main, the sort (into the first call's buffer),
    eight of @main, the floor division's seventeen (its select helper's one last), one of @main, the
    remainder's twenty-one (its scalar select helper's one fifth), then @main's remaining forty-three. -/
abbrev ops : List (HloOp τ sig (Elt F)) :=
  [ StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.nullary main_c (constantI S_ 32 100000#32),
    StableHlo.unary main_c main_v2 (broadcastInDim S1600000 ![] bcast_S_S1600000 : (⟨S_, .i32⟩ : BufTy).Contents (Elt F) → (⟨S1600000, .i32⟩ : BufTy).Contents (Elt F)),
    StableHlo.binary main_v1 main_v2 main_v3 (muli : (⟨S1600000, .i32⟩ : BufTy).Contents (Elt F) → (⟨S1600000, .i32⟩ : BufTy).Contents (Elt F) → (⟨S1600000, .i32⟩ : BufTy).Contents (Elt F)),
    StableHlo.unary main_arg2 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v3 main_v5 main_v6 (addi : (⟨S1600000, .i32⟩ : BufTy).Contents (Elt F) → (⟨S1600000, .i32⟩ : BufTy).Contents (Elt F) → (⟨S1600000, .i32⟩ : BufTy).Contents (Elt F)),
    StableHlo.TRef.unary (.of main_v6 : StableHlo.TRef sig ⟨S1600000, .i32⟩) main_call0.v0 (fun x => Host.sort S1600000 0 comparator_i32_d0 x),
    StableHlo.nullary main_c_0 (constantI S_ 1 1#1),
    StableHlo.unary main_c_0 main_v8 (broadcastInDim S1 ![] bcast_S_S1 : (⟨S_, .i1⟩ : BufTy).Contents (Elt F) → (⟨S1, .i1⟩ : BufTy).Contents (Elt F)),
    StableHlo.unary main_v7 main_v9 ((extractStridedSlice S1599999 ![1] · slices_S1600000_S1599999_1) : (⟨S1600000, .i32⟩ : BufTy).Contents (Elt F) → (⟨S1599999, .i32⟩ : BufTy).Contents (Elt F)),
    StableHlo.unary main_v7 main_v10 ((extractStridedSlice S1599999 ![0] · slices_S1600000_S1599999_0) : (⟨S1600000, .i32⟩ : BufTy).Contents (Elt F) → (⟨S1599999, .i32⟩ : BufTy).Contents (Elt F)),
    StableHlo.binary main_v9 main_v10 main_v11 (cmpi .ne : (⟨S1599999, .i32⟩ : BufTy).Contents (Elt F) → (⟨S1599999, .i32⟩ : BufTy).Contents (Elt F) → (⟨S1599999, .i1⟩ : BufTy).Contents (Elt F)),
    StableHlo.binary main_v8 main_v11 main_v12 ((fun a b => concatenate S1600000 0 [⟨S1, a⟩, ⟨S1599999, b⟩] concatenates_S1_S1599999_S1600000_d0) : (⟨S1, .i1⟩ : BufTy).Contents (Elt F) → (⟨S1599999, .i1⟩ : BufTy).Contents (Elt F) → (⟨S1600000, .i1⟩ : BufTy).Contents (Elt F)),
    StableHlo.unary main_v12 main_v13 ((extui 32 · natLt_1_32) : (⟨S1600000, .i1⟩ : BufTy).Contents (Elt F) → (⟨S1600000, .i32⟩ : BufTy).Contents (Elt F)),
    StableHlo.nullary main_c_1 (constantI S_ 32 100000#32),
    StableHlo.TRef.unary (.of main_c_1 : StableHlo.TRef sig ⟨S_, .i32⟩) main_call1.v0 id,
    StableHlo.TRef.unary main_call1.v0 main_call1.v1 (broadcastInDim S1600000 ![] bcast_S_S1600000),
    StableHlo.TRef.binary (.of main_v7 : StableHlo.TRef sig ⟨S1600000, .i32⟩) main_call1.v1 main_call1.v2 Host.divsi,
    StableHlo.TRef.unary (.of main_v7 : StableHlo.TRef sig ⟨S1600000, .i32⟩) main_call1.v3 signi,
    StableHlo.TRef.unary main_call1.v0 main_call1.v4 signi,
    StableHlo.TRef.unary main_call1.v4 main_call1.v5 (broadcastInDim S1600000 ![] bcast_S_S1600000),
    StableHlo.TRef.binary main_call1.v3 main_call1.v5 main_call1.v6 (cmpi .ne),
    StableHlo.TRef.unary main_call1.v0 main_call1.v7 (broadcastInDim S1600000 ![] bcast_S_S1600000),
    StableHlo.TRef.binary (.of main_v7 : StableHlo.TRef sig ⟨S1600000, .i32⟩) main_call1.v7 main_call1.v8 Host.remsi,
    StableHlo.TRef.nullary main_call1.c (constantI S_ 32 0#32),
    StableHlo.TRef.unary main_call1.c main_call1.v9 (broadcastInDim S1600000 ![] bcast_S_S1600000),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1600000 ![] bcast_S_S1600000),
    StableHlo.TRef.binary main_call1.v2 main_call1.v12 main_call1.v13 subi,
    StableHlo.TRef.ternary main_call1.v11 main_call1.v13 main_call1.v2 main_call1.call0.v0 select,
    StableHlo.nullary main_c_2 (constantI S_ 32 100000#32),
    StableHlo.TRef.unary (.of main_c_2 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S1600000 ![] bcast_S_S1600000),
    StableHlo.TRef.binary (.of main_v7 : StableHlo.TRef sig ⟨S1600000, .i32⟩) main_call2.v3 main_call2.v4 Host.remsi,
    StableHlo.TRef.nullary main_call2.c_1 (constantI S_ 32 0#32),
    StableHlo.TRef.unary main_call2.c_1 main_call2.v5 (broadcastInDim S1600000 ![] bcast_S_S1600000),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S1600000 ![] bcast_S_S1600000),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1600000 ![] bcast_S_S1600000),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1600000 ![] bcast_S_S1600000),
    StableHlo.TRef.binary main_call2.v4 main_call2.v13 main_call2.v14 addi,
    StableHlo.TRef.ternary main_call2.v12 main_call2.v14 main_call2.v4 main_call2.v15 select,
    StableHlo.nullary main_c_3 (constantI S_ 32 0#32),
    StableHlo.unary main_c_3 main_v16 (broadcastInDim S100000 ![] bcast_S_S100000 : (⟨S_, .i32⟩ : BufTy).Contents (Elt F) → (⟨S100000, .i32⟩ : BufTy).Contents (Elt F)),
    StableHlo.unary main_v14 main_v17 (broadcastInDim S1600000x1 ![0] bcast_S1600000_S1600000x1_0 : (⟨S1600000, .i32⟩ : BufTy).Contents (Elt F) → (⟨S1600000x1, .i32⟩ : BufTy).Contents (Elt F)),
    StableHlo.ternary main_v16 main_v17 main_v13 main_v18 ((fun x i u => Host.scatter scatter_S100000_S1600000x1_S1600000_n_0_0_1 IntOp.addi x i u) : (⟨S100000, .i32⟩ : BufTy).Contents (Elt F) → (⟨S1600000x1, .i32⟩ : BufTy).Contents (Elt F) → (⟨S1600000, .i32⟩ : BufTy).Contents (Elt F) → (⟨S100000, .i32⟩ : BufTy).Contents (Elt F)),
    StableHlo.nullary main_c_4 (constantI S_ 32 0#32),
    StableHlo.unary main_c_4 main_v19 (broadcastInDim S100000 ![] bcast_S_S100000 : (⟨S_, .i32⟩ : BufTy).Contents (Elt F) → (⟨S100000, .i32⟩ : BufTy).Contents (Elt F)),
    StableHlo.unary main_v15 main_v20 (broadcastInDim S1600000x1 ![0] bcast_S1600000_S1600000x1_0 : (⟨S1600000, .i32⟩ : BufTy).Contents (Elt F) → (⟨S1600000x1, .i32⟩ : BufTy).Contents (Elt F)),
    StableHlo.ternary main_v19 main_v20 main_v13 main_v21 ((fun x i u => Host.scatter scatter_S100000_S1600000x1_S1600000_n_0_0_1 IntOp.addi x i u) : (⟨S100000, .i32⟩ : BufTy).Contents (Elt F) → (⟨S1600000x1, .i32⟩ : BufTy).Contents (Elt F) → (⟨S1600000, .i32⟩ : BufTy).Contents (Elt F) → (⟨S100000, .i32⟩ : BufTy).Contents (Elt F)),
    StableHlo.nullary main_c_5 (constantI S_ 32 0#32),
    StableHlo.unary main_c_5 main_v22 (broadcastInDim S100000 ![] bcast_S_S100000 : (⟨S_, .i32⟩ : BufTy).Contents (Elt F) → (⟨S100000, .i32⟩ : BufTy).Contents (Elt F)),
    StableHlo.binary main_v18 main_v22 main_v23 (cmpi .slt : (⟨S100000, .i32⟩ : BufTy).Contents (Elt F) → (⟨S100000, .i32⟩ : BufTy).Contents (Elt F) → (⟨S100000, .i1⟩ : BufTy).Contents (Elt F)),
    StableHlo.nullary main_c_6 (constantI S_ 32 512#32),
    StableHlo.unary main_c_6 main_v24 (broadcastInDim S100000 ![] bcast_S_S100000 : (⟨S_, .i32⟩ : BufTy).Contents (Elt F) → (⟨S100000, .i32⟩ : BufTy).Contents (Elt F)),
    StableHlo.binary main_v18 main_v24 main_v25 (addi : (⟨S100000, .i32⟩ : BufTy).Contents (Elt F) → (⟨S100000, .i32⟩ : BufTy).Contents (Elt F) → (⟨S100000, .i32⟩ : BufTy).Contents (Elt F)),
    StableHlo.ternary main_v23 main_v25 main_v18 main_v26 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v26 main_v27 (broadcastInDim S100000x1 ![0] bcast_S100000_S100000x1_0 : (⟨S100000, .i32⟩ : BufTy).Contents (Elt F) → (⟨S100000x1, .i32⟩ : BufTy).Contents (Elt F)),
    StableHlo.binary main_arg3 main_v27 main_v28 ((fun x i => Host.gather gather_S512x256_S100000x1_S100000x256_1_0_n_n_0_1_1256 x i) : (⟨S512x256, .f32⟩ : BufTy).Contents (Elt F) → (⟨S100000x1, .i32⟩ : BufTy).Contents (Elt F) → (⟨S100000x256, .f32⟩ : BufTy).Contents (Elt F)),
    StableHlo.nullary main_c_7 (constantI S_ 32 0#32),
    StableHlo.unary main_c_7 main_v29 (broadcastInDim S100000 ![] bcast_S_S100000 : (⟨S_, .i32⟩ : BufTy).Contents (Elt F) → (⟨S100000, .i32⟩ : BufTy).Contents (Elt F)),
    StableHlo.binary main_v18 main_v29 main_v30 (cmpi .sgt : (⟨S100000, .i32⟩ : BufTy).Contents (Elt F) → (⟨S100000, .i32⟩ : BufTy).Contents (Elt F) → (⟨S100000, .i1⟩ : BufTy).Contents (Elt F)),
    StableHlo.unary main_v30 main_v31 (broadcastInDim S100000x1 ![0] bcast_S100000_S100000x1_0 : (⟨S100000, .i1⟩ : BufTy).Contents (Elt F) → (⟨S100000x1, .i1⟩ : BufTy).Contents (Elt F)),
    StableHlo.unary main_v31 main_v32 (uitofp .f32 : (⟨S100000x1, .i1⟩ : BufTy).Contents (Elt F) → (⟨S100000x1, .f32⟩ : BufTy).Contents (Elt F)),
    StableHlo.unary main_v32 main_v33 (broadcastInDim S100000x256 ![0, 1] bcast_S100000x1_S100000x256_0_1 : (⟨S100000x1, .f32⟩ : BufTy).Contents (Elt F) → (⟨S100000x256, .f32⟩ : BufTy).Contents (Elt F)),
    StableHlo.binary main_v28 main_v33 main_v34 (mulf : (⟨S100000x256, .f32⟩ : BufTy).Contents (Elt F) → (⟨S100000x256, .f32⟩ : BufTy).Contents (Elt F) → (⟨S100000x256, .f32⟩ : BufTy).Contents (Elt F)),
    StableHlo.nullary main_c_8 (constantI S_ 32 0#32),
    StableHlo.unary main_c_8 main_v35 (broadcastInDim S100000 ![] bcast_S_S100000 : (⟨S_, .i32⟩ : BufTy).Contents (Elt F) → (⟨S100000, .i32⟩ : BufTy).Contents (Elt F)),
    StableHlo.binary main_v21 main_v35 main_v36 (cmpi .slt : (⟨S100000, .i32⟩ : BufTy).Contents (Elt F) → (⟨S100000, .i32⟩ : BufTy).Contents (Elt F) → (⟨S100000, .i1⟩ : BufTy).Contents (Elt F)),
    StableHlo.nullary main_c_9 (constantI S_ 32 512#32),
    StableHlo.unary main_c_9 main_v37 (broadcastInDim S100000 ![] bcast_S_S100000 : (⟨S_, .i32⟩ : BufTy).Contents (Elt F) → (⟨S100000, .i32⟩ : BufTy).Contents (Elt F)),
    StableHlo.binary main_v21 main_v37 main_v38 (addi : (⟨S100000, .i32⟩ : BufTy).Contents (Elt F) → (⟨S100000, .i32⟩ : BufTy).Contents (Elt F) → (⟨S100000, .i32⟩ : BufTy).Contents (Elt F)),
    StableHlo.ternary main_v36 main_v38 main_v21 main_v39 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v39 main_v40 (broadcastInDim S100000x1 ![0] bcast_S100000_S100000x1_0 : (⟨S100000, .i32⟩ : BufTy).Contents (Elt F) → (⟨S100000x1, .i32⟩ : BufTy).Contents (Elt F)),
    StableHlo.binary main_arg4 main_v40 main_v41 ((fun x i => Host.gather gather_S512x256_S100000x1_S100000x256_1_0_n_n_0_1_1256 x i) : (⟨S512x256, .f32⟩ : BufTy).Contents (Elt F) → (⟨S100000x1, .i32⟩ : BufTy).Contents (Elt F) → (⟨S100000x256, .f32⟩ : BufTy).Contents (Elt F)),
    StableHlo.nullary main_c_10 (constantI S_ 32 0#32),
    StableHlo.unary main_c_10 main_v42 (broadcastInDim S100000 ![] bcast_S_S100000 : (⟨S_, .i32⟩ : BufTy).Contents (Elt F) → (⟨S100000, .i32⟩ : BufTy).Contents (Elt F)),
    StableHlo.binary main_v21 main_v42 main_v43 (cmpi .sgt : (⟨S100000, .i32⟩ : BufTy).Contents (Elt F) → (⟨S100000, .i32⟩ : BufTy).Contents (Elt F) → (⟨S100000, .i1⟩ : BufTy).Contents (Elt F)),
    StableHlo.unary main_v43 main_v44 (broadcastInDim S100000x1 ![0] bcast_S100000_S100000x1_0 : (⟨S100000, .i1⟩ : BufTy).Contents (Elt F) → (⟨S100000x1, .i1⟩ : BufTy).Contents (Elt F)),
    StableHlo.unary main_v44 main_v45 (uitofp .f32 : (⟨S100000x1, .i1⟩ : BufTy).Contents (Elt F) → (⟨S100000x1, .f32⟩ : BufTy).Contents (Elt F)),
    StableHlo.unary main_v45 main_v46 (broadcastInDim S100000x256 ![0, 1] bcast_S100000x1_S100000x256_0_1 : (⟨S100000x1, .f32⟩ : BufTy).Contents (Elt F) → (⟨S100000x256, .f32⟩ : BufTy).Contents (Elt F)),
    StableHlo.binary main_v41 main_v46 main_v47 (mulf : (⟨S100000x256, .f32⟩ : BufTy).Contents (Elt F) → (⟨S100000x256, .f32⟩ : BufTy).Contents (Elt F) → (⟨S100000x256, .f32⟩ : BufTy).Contents (Elt F)),
    StableHlo.binary main_arg0 main_v34 main_v48 (addf : (⟨S100000x256, .f32⟩ : BufTy).Contents (Elt F) → (⟨S100000x256, .f32⟩ : BufTy).Contents (Elt F) → (⟨S100000x256, .f32⟩ : BufTy).Contents (Elt F)),
    StableHlo.binary main_v48 main_v47 main_v49 (addf : (⟨S100000x256, .f32⟩ : BufTy).Contents (Elt F) → (⟨S100000x256, .f32⟩ : BufTy).Contents (Elt F) → (⟨S100000x256, .f32⟩ : BufTy).Contents (Elt F)),
    StableHlo.nullary main_c_11 (constantI S_ 32 0#32) ]

-- ninety-nine binds re-associated: the rewrite under the chain recurses once per statement
set_option maxRecDepth 4096 in
set_option maxHeartbeats 4000000 in
/-- @main is that straight line: the functions' definitions unfolded at their calls and the records at their
    fields, both sides are one chain of operation steps once sequencing is reassociated. -/
theorem main_eq (c : Dev nD) : main (F := F) c = seq ops := by
  simp only [main, main_part0, main_part1, fn_sort.body, fn_floor_divide.body, fn_where.body, fn_remainder.body,
    fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
theorem ops_sub : (ops : List (HloOp τ sig (Elt F))).Forall fun op => op.bufs ⊆ tcRefs τ sig :=
  ⟨StableHlo.unary_bufs_sub .., StableHlo.reshape_bufs_sub .., StableHlo.nullary_bufs_sub .., StableHlo.unary_bufs_sub .., StableHlo.binary_bufs_sub .., StableHlo.unary_bufs_sub ..,
    StableHlo.reshape_bufs_sub .., StableHlo.binary_bufs_sub .., StableHlo.unary_bufs_sub .., StableHlo.nullary_bufs_sub .., StableHlo.unary_bufs_sub .., StableHlo.unary_bufs_sub ..,
    StableHlo.unary_bufs_sub .., StableHlo.binary_bufs_sub .., StableHlo.binary_bufs_sub .., StableHlo.unary_bufs_sub .., StableHlo.nullary_bufs_sub .., StableHlo.unary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.binary_bufs_sub .., StableHlo.nullary_bufs_sub .., StableHlo.unary_bufs_sub .., StableHlo.binary_bufs_sub .., StableHlo.binary_bufs_sub ..,
    StableHlo.nullary_bufs_sub .., StableHlo.unary_bufs_sub .., StableHlo.binary_bufs_sub .., StableHlo.ternary_bufs_sub .., StableHlo.nullary_bufs_sub .., StableHlo.unary_bufs_sub ..,
    StableHlo.nullary_bufs_sub .., StableHlo.binary_bufs_sub .., StableHlo.nullary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.binary_bufs_sub .., StableHlo.unary_bufs_sub .., StableHlo.binary_bufs_sub .., StableHlo.binary_bufs_sub .., StableHlo.unary_bufs_sub ..,
    StableHlo.binary_bufs_sub .., StableHlo.ternary_bufs_sub .., StableHlo.nullary_bufs_sub .., StableHlo.unary_bufs_sub .., StableHlo.unary_bufs_sub .., StableHlo.ternary_bufs_sub ..,
    StableHlo.nullary_bufs_sub .., StableHlo.unary_bufs_sub .., StableHlo.unary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.binary_bufs_sub .., StableHlo.unary_bufs_sub .., StableHlo.unary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub .., StableHlo.unary_bufs_sub .., StableHlo.binary_bufs_sub ..,
    StableHlo.binary_bufs_sub .., StableHlo.binary_bufs_sub .., StableHlo.nullary_bufs_sub ..⟩

set_option maxRecDepth 8192 in
set_option maxHeartbeats 4000000 in
/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun2.lean ====
/-
  The reference's line of operations in two halves, and what the second half computes.

  The first sixty-four operations of the reference's @main compute the two integer degree arrays from the edge
  list; the remaining thirty-five look the two tables up at them, mask, and add. The whole line is the first half
  followed by the second, so its fold is the second's from the first's (`after_split`). From ANY contents of the
  buffers before it, the second half leaves the scalar returned beside the result at zero (`post_c11`), and
  neither half writes an argument (`pre_argK`, `post_argK`).
-/
import proofs.«124862_j63299228009184_1_alg».proof.Proof.RefRun

noncomputable section

namespace Cert.ReferenceIdeal.RefRun

open Idealize.ShloMosaic Idealize.ShloMosaic.TcCoe Idealize.ShloMosaic.StableHlo Idealize.SL.Sem
open Cert.ReferenceIdeal Cert.ReferenceIdeal.Gen

variable {F : FTy → Type} [FloatOps F]

/-! ## The line in two halves

The first sixty-four operations compute the two degree arrays from the edge list (the second of them is written by
the sixty-fourth); the remaining thirty-five read them, the first argument and the two tables. -/

/-- The degree prefix: @main's operations up to the second scatter-add, the calls unfolded. -/
abbrev opsPre : List (HloOp τ sig (Elt F)) :=
  [ StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.nullary main_c (constantI S_ 32 100000#32),
    StableHlo.unary main_c main_v2 (broadcastInDim S1600000 ![] bcast_S_S1600000 : (⟨S_, .i32⟩ : BufTy).Contents (Elt F) → (⟨S1600000, .i32⟩ : BufTy).Contents (Elt F)),
    StableHlo.binary main_v1 main_v2 main_v3 (muli : (⟨S1600000, .i32⟩ : BufTy).Contents (Elt F) → (⟨S1600000, .i32⟩ : BufTy).Contents (Elt F) → (⟨S1600000, .i32⟩ : BufTy).Contents (Elt F)),
    StableHlo.unary main_arg2 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v3 main_v5 main_v6 (addi : (⟨S1600000, .i32⟩ : BufTy).Contents (Elt F) → (⟨S1600000, .i32⟩ : BufTy).Contents (Elt F) → (⟨S1600000, .i32⟩ : BufTy).Contents (Elt F)),
    StableHlo.TRef.unary (.of main_v6 : StableHlo.TRef sig ⟨S1600000, .i32⟩) (.of main_v7 : StableHlo.TRef sig ⟨S1600000, .i32⟩) (fun x => Host.sort S1600000 0 comparator_i32_d0 x),
    StableHlo.nullary main_c_0 (constantI S_ 1 1#1),
    StableHlo.unary main_c_0 main_v8 (broadcastInDim S1 ![] bcast_S_S1 : (⟨S_, .i1⟩ : BufTy).Contents (Elt F) → (⟨S1, .i1⟩ : BufTy).Contents (Elt F)),
    StableHlo.unary main_v7 main_v9 ((extractStridedSlice S1599999 ![1] · slices_S1600000_S1599999_1) : (⟨S1600000, .i32⟩ : BufTy).Contents (Elt F) → (⟨S1599999, .i32⟩ : BufTy).Contents (Elt F)),
    StableHlo.unary main_v7 main_v10 ((extractStridedSlice S1599999 ![0] · slices_S1600000_S1599999_0) : (⟨S1600000, .i32⟩ : BufTy).Contents (Elt F) → (⟨S1599999, .i32⟩ : BufTy).Contents (Elt F)),
    StableHlo.binary main_v9 main_v10 main_v11 (cmpi .ne : (⟨S1599999, .i32⟩ : BufTy).Contents (Elt F) → (⟨S1599999, .i32⟩ : BufTy).Contents (Elt F) → (⟨S1599999, .i1⟩ : BufTy).Contents (Elt F)),
    StableHlo.binary main_v8 main_v11 main_v12 ((fun a b => concatenate S1600000 0 [⟨S1, a⟩, ⟨S1599999, b⟩] concatenates_S1_S1599999_S1600000_d0) : (⟨S1, .i1⟩ : BufTy).Contents (Elt F) → (⟨S1599999, .i1⟩ : BufTy).Contents (Elt F) → (⟨S1600000, .i1⟩ : BufTy).Contents (Elt F)),
    StableHlo.unary main_v12 main_v13 ((extui 32 · natLt_1_32) : (⟨S1600000, .i1⟩ : BufTy).Contents (Elt F) → (⟨S1600000, .i32⟩ : BufTy).Contents (Elt F)),
    StableHlo.nullary main_c_1 (constantI S_ 32 100000#32),
    StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S1600000, .i32⟩) (broadcastInDim S1600000 ![] bcast_S_S1600000),
    StableHlo.TRef.binary (.of main_v7 : StableHlo.TRef sig ⟨S1600000, .i32⟩) (.of main_call1_v1 : StableHlo.TRef sig ⟨S1600000, .i32⟩) (.of main_call1_v2 : StableHlo.TRef sig ⟨S1600000, .i32⟩) Host.divsi,
    StableHlo.TRef.unary (.of main_v7 : StableHlo.TRef sig ⟨S1600000, .i32⟩) (.of main_call1_v3 : StableHlo.TRef sig ⟨S1600000, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S1600000, .i32⟩) (broadcastInDim S1600000 ![] bcast_S_S1600000),
    StableHlo.TRef.binary (.of main_call1_v3 : StableHlo.TRef sig ⟨S1600000, .i32⟩) (.of main_call1_v5 : StableHlo.TRef sig ⟨S1600000, .i32⟩) (.of main_call1_v6 : StableHlo.TRef sig ⟨S1600000, .i1⟩) (cmpi .ne),
    StableHlo.TRef.unary (.of main_call1_v0 : StableHlo.TRef sig ⟨S_, .i32⟩) (.of main_call1_v7 : StableHlo.TRef sig ⟨S1600000, .i32⟩) (broadcastInDim S1600000 ![] bcast_S_S1600000),
    StableHlo.TRef.binary (.of main_v7 : StableHlo.TRef sig ⟨S1600000, .i32⟩) (.of main_call1_v7 : StableHlo.TRef sig ⟨S1600000, .i32⟩) (.of main_call1_v8 : StableHlo.TRef sig ⟨S1600000, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S1600000, .i32⟩) (broadcastInDim S1600000 ![] bcast_S_S1600000),
    StableHlo.TRef.binary (.of main_call1_v8 : StableHlo.TRef sig ⟨S1600000, .i32⟩) (.of main_call1_v9 : StableHlo.TRef sig ⟨S1600000, .i32⟩) (.of main_call1_v10 : StableHlo.TRef sig ⟨S1600000, .i1⟩) (cmpi .ne),
    StableHlo.TRef.binary (.of main_call1_v6 : StableHlo.TRef sig ⟨S1600000, .i1⟩) (.of main_call1_v10 : StableHlo.TRef sig ⟨S1600000, .i1⟩) (.of main_call1_v11 : StableHlo.TRef sig ⟨S1600000, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S1600000, .i32⟩) (broadcastInDim S1600000 ![] bcast_S_S1600000),
    StableHlo.TRef.binary (.of main_call1_v2 : StableHlo.TRef sig ⟨S1600000, .i32⟩) (.of main_call1_v12 : StableHlo.TRef sig ⟨S1600000, .i32⟩) (.of main_call1_v13 : StableHlo.TRef sig ⟨S1600000, .i32⟩) subi,
    StableHlo.TRef.ternary (.of main_call1_v11 : StableHlo.TRef sig ⟨S1600000, .i1⟩) (.of main_call1_v13 : StableHlo.TRef sig ⟨S1600000, .i32⟩) (.of main_call1_v2 : StableHlo.TRef sig ⟨S1600000, .i32⟩) (.of main_v14 : StableHlo.TRef sig ⟨S1600000, .i32⟩) select,
    StableHlo.nullary main_c_2 (constantI S_ 32 100000#32),
    StableHlo.TRef.unary (.of main_c_2 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary main_call2_call0.v0 (.of main_call2_v3 : StableHlo.TRef sig ⟨S1600000, .i32⟩) (broadcastInDim S1600000 ![] bcast_S_S1600000),
    StableHlo.TRef.binary (.of main_v7 : StableHlo.TRef sig ⟨S1600000, .i32⟩) (.of main_call2_v3 : StableHlo.TRef sig ⟨S1600000, .i32⟩) (.of main_call2_v4 : StableHlo.TRef sig ⟨S1600000, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S1600000, .i32⟩) (broadcastInDim S1600000 ![] bcast_S_S1600000),
    StableHlo.TRef.binary (.of main_call2_v4 : StableHlo.TRef sig ⟨S1600000, .i32⟩) (.of main_call2_v5 : StableHlo.TRef sig ⟨S1600000, .i32⟩) (.of main_call2_v6 : StableHlo.TRef sig ⟨S1600000, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S1600000, .i32⟩) (broadcastInDim S1600000 ![] bcast_S_S1600000),
    StableHlo.TRef.binary (.of main_call2_v4 : StableHlo.TRef sig ⟨S1600000, .i32⟩) (.of main_call2_v7 : StableHlo.TRef sig ⟨S1600000, .i32⟩) (.of main_call2_v8 : StableHlo.TRef sig ⟨S1600000, .i1⟩) (cmpi .slt),
    StableHlo.TRef.nullary (.of main_call2_c_3 : StableHlo.TRef sig ⟨S_, .i32⟩) (constantI S_ 32 0#32),
    StableHlo.TRef.binary main_call2_call0.v0 (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S1600000, .i1⟩) (broadcastInDim S1600000 ![] bcast_S_S1600000),
    StableHlo.TRef.binary (.of main_call2_v8 : StableHlo.TRef sig ⟨S1600000, .i1⟩) (.of main_call2_v10 : StableHlo.TRef sig ⟨S1600000, .i1⟩) (.of main_call2_v11 : StableHlo.TRef sig ⟨S1600000, .i1⟩) (cmpi .ne),
    StableHlo.TRef.binary (.of main_call2_v11 : StableHlo.TRef sig ⟨S1600000, .i1⟩) (.of main_call2_v6 : StableHlo.TRef sig ⟨S1600000, .i1⟩) (.of main_call2_v12 : StableHlo.TRef sig ⟨S1600000, .i1⟩) andi,
    StableHlo.TRef.unary main_call2_call0.v0 (.of main_call2_v13 : StableHlo.TRef sig ⟨S1600000, .i32⟩) (broadcastInDim S1600000 ![] bcast_S_S1600000),
    StableHlo.TRef.binary (.of main_call2_v4 : StableHlo.TRef sig ⟨S1600000, .i32⟩) (.of main_call2_v13 : StableHlo.TRef sig ⟨S1600000, .i32⟩) (.of main_call2_v14 : StableHlo.TRef sig ⟨S1600000, .i32⟩) addi,
    StableHlo.TRef.ternary (.of main_call2_v12 : StableHlo.TRef sig ⟨S1600000, .i1⟩) (.of main_call2_v14 : StableHlo.TRef sig ⟨S1600000, .i32⟩) (.of main_call2_v4 : StableHlo.TRef sig ⟨S1600000, .i32⟩) (.of main_v15 : StableHlo.TRef sig ⟨S1600000, .i32⟩) select,
    StableHlo.nullary main_c_3 (constantI S_ 32 0#32),
    StableHlo.unary main_c_3 main_v16 (broadcastInDim S100000 ![] bcast_S_S100000 : (⟨S_, .i32⟩ : BufTy).Contents (Elt F) → (⟨S100000, .i32⟩ : BufTy).Contents (Elt F)),
    StableHlo.unary main_v14 main_v17 (broadcastInDim S1600000x1 ![0] bcast_S1600000_S1600000x1_0 : (⟨S1600000, .i32⟩ : BufTy).Contents (Elt F) → (⟨S1600000x1, .i32⟩ : BufTy).Contents (Elt F)),
    StableHlo.ternary main_v16 main_v17 main_v13 main_v18 ((fun x i u => Host.scatter scatter_S100000_S1600000x1_S1600000_n_0_0_1 IntOp.addi x i u) : (⟨S100000, .i32⟩ : BufTy).Contents (Elt F) → (⟨S1600000x1, .i32⟩ : BufTy).Contents (Elt F) → (⟨S1600000, .i32⟩ : BufTy).Contents (Elt F) → (⟨S100000, .i32⟩ : BufTy).Contents (Elt F)),
    StableHlo.nullary main_c_4 (constantI S_ 32 0#32),
    StableHlo.unary main_c_4 main_v19 (broadcastInDim S100000 ![] bcast_S_S100000 : (⟨S_, .i32⟩ : BufTy).Contents (Elt F) → (⟨S100000, .i32⟩ : BufTy).Contents (Elt F)),
    StableHlo.unary main_v15 main_v20 (broadcastInDim S1600000x1 ![0] bcast_S1600000_S1600000x1_0 : (⟨S1600000, .i32⟩ : BufTy).Contents (Elt F) → (⟨S1600000x1, .i32⟩ : BufTy).Contents (Elt F)),
    StableHlo.ternary main_v19 main_v20 main_v13 main_v21 ((fun x i u => Host.scatter scatter_S100000_S1600000x1_S1600000_n_0_0_1 IntOp.addi x i u) : (⟨S100000, .i32⟩ : BufTy).Contents (Elt F) → (⟨S1600000x1, .i32⟩ : BufTy).Contents (Elt F) → (⟨S1600000, .i32⟩ : BufTy).Contents (Elt F) → (⟨S100000, .i32⟩ : BufTy).Contents (Elt F)) ]

/-- The rest of the line: the two table look-ups masked by "degree positive", the two additions, the scalar zero. -/
abbrev opsPost : List (HloOp τ sig (Elt F)) :=
  [ StableHlo.nullary main_c_5 (constantI S_ 32 0#32),
    StableHlo.unary main_c_5 main_v22 (broadcastInDim S100000 ![] bcast_S_S100000 : (⟨S_, .i32⟩ : BufTy).Contents (Elt F) → (⟨S100000, .i32⟩ : BufTy).Contents (Elt F)),
    StableHlo.binary main_v18 main_v22 main_v23 (cmpi .slt : (⟨S100000, .i32⟩ : BufTy).Contents (Elt F) → (⟨S100000, .i32⟩ : BufTy).Contents (Elt F) → (⟨S100000, .i1⟩ : BufTy).Contents (Elt F)),
    StableHlo.nullary main_c_6 (constantI S_ 32 512#32),
    StableHlo.unary main_c_6 main_v24 (broadcastInDim S100000 ![] bcast_S_S100000 : (⟨S_, .i32⟩ : BufTy).Contents (Elt F) → (⟨S100000, .i32⟩ : BufTy).Contents (Elt F)),
    StableHlo.binary main_v18 main_v24 main_v25 (addi : (⟨S100000, .i32⟩ : BufTy).Contents (Elt F) → (⟨S100000, .i32⟩ : BufTy).Contents (Elt F) → (⟨S100000, .i32⟩ : BufTy).Contents (Elt F)),
    StableHlo.ternary main_v23 main_v25 main_v18 main_v26 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v26 main_v27 (broadcastInDim S100000x1 ![0] bcast_S100000_S100000x1_0 : (⟨S100000, .i32⟩ : BufTy).Contents (Elt F) → (⟨S100000x1, .i32⟩ : BufTy).Contents (Elt F)),
    StableHlo.binary main_arg3 main_v27 main_v28 ((fun x i => Host.gather gather_S512x256_S100000x1_S100000x256_1_0_n_n_0_1_1256 x i) : (⟨S512x256, .f32⟩ : BufTy).Contents (Elt F) → (⟨S100000x1, .i32⟩ : BufTy).Contents (Elt F) → (⟨S100000x256, .f32⟩ : BufTy).Contents (Elt F)),
    StableHlo.nullary main_c_7 (constantI S_ 32 0#32),
    StableHlo.unary main_c_7 main_v29 (broadcastInDim S100000 ![] bcast_S_S100000 : (⟨S_, .i32⟩ : BufTy).Contents (Elt F) → (⟨S100000, .i32⟩ : BufTy).Contents (Elt F)),
    StableHlo.binary main_v18 main_v29 main_v30 (cmpi .sgt : (⟨S100000, .i32⟩ : BufTy).Contents (Elt F) → (⟨S100000, .i32⟩ : BufTy).Contents (Elt F) → (⟨S100000, .i1⟩ : BufTy).Contents (Elt F)),
    StableHlo.unary main_v30 main_v31 (broadcastInDim S100000x1 ![0] bcast_S100000_S100000x1_0 : (⟨S100000, .i1⟩ : BufTy).Contents (Elt F) → (⟨S100000x1, .i1⟩ : BufTy).Contents (Elt F)),
    StableHlo.unary main_v31 main_v32 (uitofp .f32 : (⟨S100000x1, .i1⟩ : BufTy).Contents (Elt F) → (⟨S100000x1, .f32⟩ : BufTy).Contents (Elt F)),
    StableHlo.unary main_v32 main_v33 (broadcastInDim S100000x256 ![0, 1] bcast_S100000x1_S100000x256_0_1 : (⟨S100000x1, .f32⟩ : BufTy).Contents (Elt F) → (⟨S100000x256, .f32⟩ : BufTy).Contents (Elt F)),
    StableHlo.binary main_v28 main_v33 main_v34 (mulf : (⟨S100000x256, .f32⟩ : BufTy).Contents (Elt F) → (⟨S100000x256, .f32⟩ : BufTy).Contents (Elt F) → (⟨S100000x256, .f32⟩ : BufTy).Contents (Elt F)),
    StableHlo.nullary main_c_8 (constantI S_ 32 0#32),
    StableHlo.unary main_c_8 main_v35 (broadcastInDim S100000 ![] bcast_S_S100000 : (⟨S_, .i32⟩ : BufTy).Contents (Elt F) → (⟨S100000, .i32⟩ : BufTy).Contents (Elt F)),
    StableHlo.binary main_v21 main_v35 main_v36 (cmpi .slt : (⟨S100000, .i32⟩ : BufTy).Contents (Elt F) → (⟨S100000, .i32⟩ : BufTy).Contents (Elt F) → (⟨S100000, .i1⟩ : BufTy).Contents (Elt F)),
    StableHlo.nullary main_c_9 (constantI S_ 32 512#32),
    StableHlo.unary main_c_9 main_v37 (broadcastInDim S100000 ![] bcast_S_S100000 : (⟨S_, .i32⟩ : BufTy).Contents (Elt F) → (⟨S100000, .i32⟩ : BufTy).Contents (Elt F)),
    StableHlo.binary main_v21 main_v37 main_v38 (addi : (⟨S100000, .i32⟩ : BufTy).Contents (Elt F) → (⟨S100000, .i32⟩ : BufTy).Contents (Elt F) → (⟨S100000, .i32⟩ : BufTy).Contents (Elt F)),
    StableHlo.ternary main_v36 main_v38 main_v21 main_v39 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v39 main_v40 (broadcastInDim S100000x1 ![0] bcast_S100000_S100000x1_0 : (⟨S100000, .i32⟩ : BufTy).Contents (Elt F) → (⟨S100000x1, .i32⟩ : BufTy).Contents (Elt F)),
    StableHlo.binary main_arg4 main_v40 main_v41 ((fun x i => Host.gather gather_S512x256_S100000x1_S100000x256_1_0_n_n_0_1_1256 x i) : (⟨S512x256, .f32⟩ : BufTy).Contents (Elt F) → (⟨S100000x1, .i32⟩ : BufTy).Contents (Elt F) → (⟨S100000x256, .f32⟩ : BufTy).Contents (Elt F)),
    StableHlo.nullary main_c_10 (constantI S_ 32 0#32),
    StableHlo.unary main_c_10 main_v42 (broadcastInDim S100000 ![] bcast_S_S100000 : (⟨S_, .i32⟩ : BufTy).Contents (Elt F) → (⟨S100000, .i32⟩ : BufTy).Contents (Elt F)),
    StableHlo.binary main_v21 main_v42 main_v43 (cmpi .sgt : (⟨S100000, .i32⟩ : BufTy).Contents (Elt F) → (⟨S100000, .i32⟩ : BufTy).Contents (Elt F) → (⟨S100000, .i1⟩ : BufTy).Contents (Elt F)),
    StableHlo.unary main_v43 main_v44 (broadcastInDim S100000x1 ![0] bcast_S100000_S100000x1_0 : (⟨S100000, .i1⟩ : BufTy).Contents (Elt F) → (⟨S100000x1, .i1⟩ : BufTy).Contents (Elt F)),
    StableHlo.unary main_v44 main_v45 (uitofp .f32 : (⟨S100000x1, .i1⟩ : BufTy).Contents (Elt F) → (⟨S100000x1, .f32⟩ : BufTy).Contents (Elt F)),
    StableHlo.unary main_v45 main_v46 (broadcastInDim S100000x256 ![0, 1] bcast_S100000x1_S100000x256_0_1 : (⟨S100000x1, .f32⟩ : BufTy).Contents (Elt F) → (⟨S100000x256, .f32⟩ : BufTy).Contents (Elt F)),
    StableHlo.binary main_v41 main_v46 main_v47 (mulf : (⟨S100000x256, .f32⟩ : BufTy).Contents (Elt F) → (⟨S100000x256, .f32⟩ : BufTy).Contents (Elt F) → (⟨S100000x256, .f32⟩ : BufTy).Contents (Elt F)),
    StableHlo.binary main_arg0 main_v34 main_v48 (addf : (⟨S100000x256, .f32⟩ : BufTy).Contents (Elt F) → (⟨S100000x256, .f32⟩ : BufTy).Contents (Elt F) → (⟨S100000x256, .f32⟩ : BufTy).Contents (Elt F)),
    StableHlo.binary main_v48 main_v47 main_v49 (addf : (⟨S100000x256, .f32⟩ : BufTy).Contents (Elt F) → (⟨S100000x256, .f32⟩ : BufTy).Contents (Elt F) → (⟨S100000x256, .f32⟩ : BufTy).Contents (Elt F)),
    StableHlo.nullary main_c_11 (constantI S_ 32 0#32) ]

/-- The whole line is the prefix followed by the rest (the two lists spell the same operations: a call's record
    field is the buffer it names). -/
theorem ops_split : (ops : List (HloOp τ sig (Elt F))) = opsPre ++ opsPost := rfl

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_split (V : Valuation τ sig (Elt F)) : after ops V = after opsPost (after opsPre V) :=
  (congrArg (fun l => after l V) ops_split).trans (after_app opsPre opsPost V)

/-! ## The buffers neither half writes, and the scalar result -/

set_option maxRecDepth 8192 in
/-- No operation of the rest writes argument 0. -/
theorem post_arg0 (V : Valuation τ sig (Elt F)) :
    after opsPost V (main_arg0 : DevRef τ sig) = V (main_arg0 : DevRef τ sig) := by
  simp only [after_cons, after_nil]
  rfl

set_option maxRecDepth 8192 in
/-- No operation of the rest writes argument 1. -/
theorem post_arg1 (V : Valuation τ sig (Elt F)) :
    after opsPost V (main_arg1 : DevRef τ sig) = V (main_arg1 : DevRef τ sig) := by
  simp only [after_cons, after_nil]
  rfl

set_option maxRecDepth 8192 in
/-- No operation of the rest writes argument 2. -/
theorem post_arg2 (V : Valuation τ sig (Elt F)) :
    after opsPost V (main_arg2 : DevRef τ sig) = V (main_arg2 : DevRef τ sig) := by
  simp only [after_cons, after_nil]
  rfl

set_option maxRecDepth 8192 in
/-- No operation of the rest writes argument 3. -/
theorem post_arg3 (V : Valuation τ sig (Elt F)) :
    after opsPost V (main_arg3 : DevRef τ sig) = V (main_arg3 : DevRef τ sig) := by
  simp only [after_cons, after_nil]
  rfl

set_option maxRecDepth 8192 in
/-- No operation of the rest writes argument 4. -/
theorem post_arg4 (V : Valuation τ sig (Elt F)) :
    after opsPost V (main_arg4 : DevRef τ sig) = V (main_arg4 : DevRef τ sig) := by
  simp only [after_cons, after_nil]
  rfl

set_option maxRecDepth 8192 in
/-- The scalar returned beside the result is the constant zero. -/
theorem post_c11 (W : Valuation τ sig (Elt F)) :
    after opsPost W (main_c_11 : DevRef τ sig) = constantI S_ 32 0#32 := by
  simp only [after_cons, after_nil]
  rfl

set_option maxRecDepth 8192 in
/-- No operation of the prefix writes argument 0. -/
theorem pre_arg0 (V : Valuation τ sig (Elt F)) :
    after opsPre V (main_arg0 : DevRef τ sig) = V (main_arg0 : DevRef τ sig) := by
  simp only [after_cons, after_nil]
  rfl

set_option maxRecDepth 8192 in
/-- No operation of the prefix writes argument 1. -/
theorem pre_arg1 (V : Valuation τ sig (Elt F)) :
    after opsPre V (main_arg1 : DevRef τ sig) = V (main_arg1 : DevRef τ sig) := by
  simp only [after_cons, after_nil]
  rfl

set_option maxRecDepth 8192 in
/-- No operation of the prefix writes argument 2. -/
theorem pre_arg2 (V : Valuation τ sig (Elt F)) :
    after opsPre V (main_arg2 : DevRef τ sig) = V (main_arg2 : DevRef τ sig) := by
  simp only [after_cons, after_nil]
  rfl

set_option maxRecDepth 8192 in
/-- No operation of the prefix writes argument 3. -/
theorem pre_arg3 (V : Valuation τ sig (Elt F)) :
    after opsPre V (main_arg3 : DevRef τ sig) = V (main_arg3 : DevRef τ sig) := by
  simp only [after_cons, after_nil]
  rfl

set_option maxRecDepth 8192 in
/-- No operation of the prefix writes argument 4. -/
theorem pre_arg4 (V : Valuation τ sig (Elt F)) :
    after opsPre V (main_arg4 : DevRef τ sig) = V (main_arg4 : DevRef τ sig) := by
  simp only [after_cons, after_nil]
  rfl

end Cert.ReferenceIdeal.RefRun

end
-- ==== Proof.RefOut.lean ====
/-
  THE REFERENCE'S RESULT AS ONE TERM, AND THAT TERM READ AT AN INDEX.

  From x, the two tables and the two degree arrays the reference computes
    out = (x + gather(tin, start(din)) · gate(din)) + gather(tout, start(dout)) · gate(dout),
  where start(d) = d + 512 if d < 0 else d, as a [100000,1] array of start indices, the gather reads table row
  clamp(start, 0, 511), and gate(d) is the bit d > 0 converted to a float and broadcast along the row.
  At the extended reals, read at (p, q): x(p,q) + tin(clamp(start(din p)), q) · gate(din p) + the same for tout.
  With row 0 of each table zero this is x(p,q) + tin(c(din p), q) + tout(c(dout p), q), c the clip into [0, 511]; and
  each table term is the contraction of the one-hot row of c(d) with the table column.
-/
import proofs.«124862_j63299228009184_1_alg».proof.Proof.Gen.ReferenceIdeal
import Idealize.ShloMosaic.Lib.ValueIdx
import Idealize.ShloMosaic.Lib.IdealHost
import Idealize.ShloMosaic.Lib.Pipeline.Value

noncomputable section

open scoped BigOperators

namespace Cert.ReferenceIdeal.RefOut

open Idealize.ShloMosaic Idealize.ShloMosaic.ValueIdx Cert.ReferenceIdeal
open Cert.ReferenceIdeal.Facts₀ Cert.ReferenceIdeal.Facts

variable [Cert.ReferenceIdeal.Facts]

section Def
variable {F : FTy → Type} [FloatOps F]

/-- The start indices of a degree array: d + 512 where d is negative, else d, as a [100000,1] array. -/
def startV (d : IVec S100000 32) : IVec S100000x1 32 :=
  broadcastInDim S100000x1 ![0] bcast_S100000_S100000x1_0
    (select (cmpi .slt d (broadcastInDim S100000 ![] bcast_S_S100000 (constantI S_ 32 0#32)))
      (addi d (broadcastInDim S100000 ![] bcast_S_S100000 (constantI S_ 32 512#32))) d)

/-- The gate of a degree array: the bit d > 0 as a float, broadcast along the rows. -/
def gateV (d : IVec S100000 32) : FVec F S100000x256 .f32 :=
  broadcastInDim S100000x256 ![0, 1] bcast_S100000x1_S100000x256_0_1
    (uitofp .f32 (broadcastInDim S100000x1 ![0] bcast_S100000_S100000x1_0
      (cmpi .sgt d (broadcastInDim S100000 ![] bcast_S_S100000 (constantI S_ 32 0#32)))))

/-- One table's term: the gathered rows times the gate. -/
def termV (T : FVec F S512x256 .f32) (d : IVec S100000 32) : FVec F S100000x256 .f32 :=
  mulf (Host.gather gather_S512x256_S100000x1_S100000x256_1_0_n_n_0_1_1256 T (startV d)) (gateV d)

/-- THE REFERENCE'S RESULT from x, the two tables and the two degree arrays. -/
def refOut (x : FVec F S100000x256 .f32) (tin tout : FVec F S512x256 .f32) (din dout : IVec S100000 32) :
    FVec F S100000x256 .f32 :=
  addf (addf x (termV tin din)) (termV tout dout)

/-- The same term with every operation spelled out. -/
theorem refOut_eq (x : FVec F S100000x256 .f32) (tin tout : FVec F S512x256 .f32) (din dout : IVec S100000 32) :
    refOut x tin tout din dout =
      addf (addf x
        (mulf (Host.gather gather_S512x256_S100000x1_S100000x256_1_0_n_n_0_1_1256 tin
            (broadcastInDim S100000x1 ![0] bcast_S100000_S100000x1_0
              (select (cmpi .slt din (broadcastInDim S100000 ![] bcast_S_S100000 (constantI S_ 32 0#32)))
                (addi din (broadcastInDim S100000 ![] bcast_S_S100000 (constantI S_ 32 512#32))) din)))
          (broadcastInDim S100000x256 ![0, 1] bcast_S100000x1_S100000x256_0_1
            (uitofp .f32 (broadcastInDim S100000x1 ![0] bcast_S100000_S100000x1_0
              (cmpi .sgt din (broadcastInDim S100000 ![] bcast_S_S100000 (constantI S_ 32 0#32))))))))
        (mulf (Host.gather gather_S512x256_S100000x1_S100000x256_1_0_n_n_0_1_1256 tout
            (broadcastInDim S100000x1 ![0] bcast_S100000_S100000x1_0
              (select (cmpi .slt dout (broadcastInDim S100000 ![] bcast_S_S100000 (constantI S_ 32 0#32)))
                (addi dout (broadcastInDim S100000 ![] bcast_S_S100000 (constantI S_ 32 512#32))) dout)))
          (broadcastInDim S100000x256 ![0, 1] bcast_S100000x1_S100000x256_0_1
            (uitofp .f32 (broadcastInDim S100000x1 ![0] bcast_S100000_S100000x1_0
              (cmpi .sgt dout (broadcastInDim S100000 ![] bcast_S_S100000 (constantI S_ 32 0#32))))))) := rfl

end Def

end Cert.ReferenceIdeal.RefOut

end
-- ==== Proof.RefRun3.lean ====
/-
  The reference's result buffer as a term of the arguments and the degree arrays.

  From ANY contents of the buffers before it, the second half of the reference's line (thirty-five operations)
  leaves the result buffer at the reference's result term of five of them: the first argument, the two tables and the
  two degree buffers (`post_out`). With the split of the line and the argument buffers' invariance this gives the
  whole line's fold at the result, at the scalar beside it and at each argument (`out_eq`, `c11_eq`, `argK_eq`),
  the degree arrays being the first half's fold at their two buffers.
-/
import proofs.«124862_j63299228009184_1_alg».proof.Proof.RefRun2
import proofs.«124862_j63299228009184_1_alg».proof.Proof.RefOut

noncomputable section

namespace Cert.ReferenceIdeal.RefRun

open Idealize.ShloMosaic Idealize.ShloMosaic.TcCoe Idealize.ShloMosaic.StableHlo Idealize.SL.Sem
open Cert.ReferenceIdeal Cert.ReferenceIdeal.Gen

variable {F : FTy → Type} [FloatOps F]

attribute [local irreducible] Host.gather in
set_option maxRecDepth 8192 in
set_option maxHeartbeats 1000000 in
/-- From any contents `W`, the second half leaves the result buffer at the reference's result term of `W` at the first
    argument, the two tables and the two degree buffers: the fold unrolled, each operation's result read at the
    buffer it writes — all by computation; the gather stays folded (the equation never looks inside it). -/
theorem post_out (W : Valuation τ sig (Elt F)) :
    after opsPost W (main_v49 : DevRef τ sig)
      = RefOut.refOut (W (main_arg0 : DevRef τ sig)) (W (main_arg3 : DevRef τ sig)) (W (main_arg4 : DevRef τ sig))
          (W (main_v18 : DevRef τ sig)) (W (main_v21 : DevRef τ sig)) := by
  simp only [after_cons, after_nil]
  rfl

/-! ## The whole line -/

/-- The whole line's fold at the result buffer: the result term of the arguments and of the first half's fold at the
    two degree buffers. -/
theorem out_eq (V : Valuation τ sig (Elt F)) :
    after ops V (main_v49 : DevRef τ sig)
      = RefOut.refOut (V (main_arg0 : DevRef τ sig)) (V (main_arg3 : DevRef τ sig)) (V (main_arg4 : DevRef τ sig))
          (after opsPre V (main_v18 : DevRef τ sig)) (after opsPre V (main_v21 : DevRef τ sig)) := by
  rw [after_split, post_out, pre_arg0, pre_arg3, pre_arg4]

/-- The whole line's fold at the scalar returned beside the result. -/
theorem c11_eq (V : Valuation τ sig (Elt F)) :
    after ops V (main_c_11 : DevRef τ sig) = constantI S_ 32 0#32 := by
  rw [after_split, post_c11]

/-- The whole line leaves argument 0 as launched. -/
theorem arg0_eq (V : Valuation τ sig (Elt F)) :
    after ops V (main_arg0 : DevRef τ sig) = V (main_arg0 : DevRef τ sig) := by
  rw [after_split, post_arg0, pre_arg0]

/-- The whole line leaves argument 1 as launched. -/
theorem arg1_eq (V : Valuation τ sig (Elt F)) :
    after ops V (main_arg1 : DevRef τ sig) = V (main_arg1 : DevRef τ sig) := by
  rw [after_split, post_arg1, pre_arg1]

/-- The whole line leaves argument 2 as launched. -/
theorem arg2_eq (V : Valuation τ sig (Elt F)) :
    after ops V (main_arg2 : DevRef τ sig) = V (main_arg2 : DevRef τ sig) := by
  rw [after_split, post_arg2, pre_arg2]

/-- The whole line leaves argument 3 as launched. -/
theorem arg3_eq (V : Valuation τ sig (Elt F)) :
    after ops V (main_arg3 : DevRef τ sig) = V (main_arg3 : DevRef τ sig) := by
  rw [after_split, post_arg3, pre_arg3]

/-- The whole line leaves argument 4 as launched. -/
theorem arg4_eq (V : Valuation τ sig (Elt F)) :
    after ops V (main_arg4 : DevRef τ sig) = V (main_arg4 : DevRef τ sig) := by
  rw [after_split, post_arg4, pre_arg4]

end Cert.ReferenceIdeal.RefRun

end
-- ==== Proof.Lookup.lean ====
/-
  THE SCALAR FACTS THE TWO SIDES MEET AT.

  A degree is a 32-bit word d, read signed. The kernel clips it into [0, 511], c(d) = min(511, max(0, d)), compares
  c(d) with each k in [0, 512) and contracts the resulting row of zeros and ones with a table column: the sum over k of
  [c(d) = k] · T(k), which is T(c(d)). The reference reads the table at the start index s(d) (d + 512 when d < 0, else d)
  clamped into [0, 511], and multiplies by the gate g(d) = [d > 0] as a float. For d > 0 the clamped start is c(d) and the
  gate is 1; for d ≤ 0 the gate is 0 and c(d) = 0, so with T(0) = 0 both sides are T(c(d)).
-/
import Idealize.ShloMosaic.PureOps.Ideal
import Idealize.ShloMosaic.PureOps.Ideal.Laws
import Idealize.ShloMosaic.Lib.ValueIdx
import Mathlib

noncomputable section

open scoped BigOperators

namespace Cert.Lookup

open Idealize.ShloMosaic

/-! ## A 32-bit word read signed -/

/-- The signed reading of a 32-bit word from its unsigned one. -/
theorem toInt_eq (x : BitVec 32) :
    x.toInt = if x.toNat < 2147483648 then (x.toNat : Int) else (x.toNat : Int) - 4294967296 := by
  have h := x.isLt
  rw [BitVec.toInt_eq_toNat_cond]
  split <;> split <;> omega

/-- The signed maximum of two words reads the maximum of their signed readings. -/
theorem maxsi_toInt (x y : BitVec 32) : (IntOp.maxsi x y).toInt = max x.toInt y.toInt := by
  unfold IntOp.maxsi
  rw [BitVec.slt_eq_decide]
  by_cases h : y.toInt < x.toInt
  · rw [if_pos (decide_eq_true h)]; omega
  · rw [if_neg (by simpa using h)]; omega

/-- The signed minimum of two words reads the minimum of their signed readings. -/
theorem minsi_toInt (x y : BitVec 32) : (IntOp.minsi x y).toInt = min x.toInt y.toInt := by
  unfold IntOp.minsi
  rw [BitVec.slt_eq_decide]
  by_cases h : x.toInt < y.toInt
  · rw [if_pos (decide_eq_true h)]; omega
  · rw [if_neg (by simpa using h)]; omega

/-! ## The kernel's clip -/

/-- The kernel's clip of a degree into [0, 511]: min(511, max(0, d)), signed. -/
abbrev clip (d : BitVec 32) : BitVec 32 := IntOp.minsi 511#32 (IntOp.maxsi 0#32 d)

theorem clip_def (d : BitVec 32) : clip d = IntOp.minsi 511#32 (IntOp.maxsi 0#32 d) := rfl

/-- The clip read signed. -/
theorem clip_toInt (d : BitVec 32) : (clip d).toInt = min 511 (max 0 d.toInt) := by
  have h0 : (0#32 : BitVec 32).toInt = 0 := by decide
  have h511 : (511#32 : BitVec 32).toInt = 511 := by decide
  rw [clip, minsi_toInt, maxsi_toInt, h0, h511]

/-- The clip read unsigned is the same number. -/
theorem clip_toNat (d : BitVec 32) : ((clip d).toNat : Int) = min 511 (max 0 d.toInt) := by
  have h := clip_toInt d
  have e := toInt_eq (clip d)
  have hlt := (clip d).isLt
  split at e <;> omega

/-- The clip is below 512. -/
theorem clip_lt (d : BitVec 32) : (clip d).toNat < 512 := by
  have h := clip_toNat d
  omega

/-- The clip is the word of its own value. -/
theorem clip_eq_ofNat (d : BitVec 32) : clip d = BitVec.ofNat 32 (clip d).toNat := by
  apply BitVec.eq_of_toNat_eq
  rw [BitVec.toNat_ofNat, Nat.mod_eq_of_lt (clip d).isLt]

/-- The clip is the word k, k below 512, exactly when its value is k. -/
theorem clip_eq_iff (d : BitVec 32) (k : Nat) (hk : k < 512) : clip d = BitVec.ofNat 32 k ↔ (clip d).toNat = k := by
  constructor
  · intro h
    rw [h, BitVec.toNat_ofNat]
    exact Nat.mod_eq_of_lt (by omega)
  · intro h
    rw [← h]
    exact clip_eq_ofNat d

/-- For a positive degree the clip is min(511, d). -/
theorem clip_of_pos (d : BitVec 32) (h : 0 < d.toInt) : ((clip d).toNat : Int) = min 511 d.toInt := by
  have := clip_toNat d
  omega

/-- For a degree that is not positive the clip is 0. -/
theorem clip_of_nonpos (d : BitVec 32) (h : d.toInt ≤ 0) : (clip d).toNat = 0 := by
  have := clip_toNat d
  omega

/-! ## The kernel's side: a row of zeros and ones contracted with a table column -/

/-- A sum against the indicator of one index picks that index's term (in the extended reals 0 · x = 0 and 1 · x = x
    for every x, the infinities included). -/
theorem onehot_sum (t : Fin 512 → EReal) (j : Fin 512) :
    ∑ k : Fin 512, (if k = j then (1 : EReal) else 0) * t k = t j := by
  rw [Finset.sum_eq_single j]
  · rw [if_pos rfl, one_mul]
  · intro b _ hb
    rw [if_neg hb, zero_mul]
  · intro h
    exact absurd (Finset.mem_univ j) h

/-- The kernel's one-hot entry: the comparison bit of two words, widened unsigned to 32 bits and converted signed to a
    float, is 1 when the words are equal and 0 otherwise. -/
theorem onehot_entry (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  unfold IntOp.cmpi
  by_cases h : a = b
  · have e : (a == b) = true := by simpa using h
    have e1 : ((BitVec.ofBool true).setWidth 32).toInt = 1 := by decide
    rw [if_pos h]
    simp only [e, e1]
    norm_num
  · have e : (a == b) = false := by simpa using h
    have e0 : ((BitVec.ofBool false).setWidth 32).toInt = 0 := by decide
    rw [if_neg h]
    simp only [e, e0]
    norm_num

/-- The kernel's one-hot entry against the word k, k below 512, is the indicator of "the clip's value is k". -/
theorem onehot_clip (d : BitVec 32) (k : Fin 512) :
    FloatOps.sitofp (F := Ideal) .f32 ((IntOp.cmpi .eq (clip d) (BitVec.ofNat 32 k.val)).setWidth 32)
      = if k = (⟨(clip d).toNat, clip_lt d⟩ : Fin 512) then (1 : EReal) else 0 := by
  rw [onehot_entry]
  by_cases h : clip d = BitVec.ofNat 32 k.val
  · have hk := (clip_eq_iff d k.val k.isLt).1 h
    rw [if_pos h, if_pos (Fin.ext hk.symm)]
  · have hk : ¬ k = (⟨(clip d).toNat, clip_lt d⟩ : Fin 512) := fun e =>
      h ((clip_eq_iff d k.val k.isLt).2 (by rw [e]))
    rw [if_neg h, if_neg hk]

/-- THE KERNEL'S ENTRY: the one-hot row of the clipped degree contracted with a table column is the column at the clip. -/
theorem kernel_entry (T : Fin 512 → EReal) (d : BitVec 32) :
    ∑ k : Fin 512, FloatOps.sitofp (F := Ideal) .f32 ((IntOp.cmpi .eq (clip d) (BitVec.ofNat 32 k.val)).setWidth 32) * T k
      = T ⟨(clip d).toNat, clip_lt d⟩ := by
  simp only [onehot_clip]
  exact onehot_sum T _

/-! ## The reference's side: a clamped read times a gate -/

/-- The reference's start index: d + 512 when d is negative, else d. -/
abbrev startIdx (d : BitVec 32) : BitVec 32 := Scalar.select (IntOp.cmpi .slt d 0#32) (IntOp.addi d 512#32) d

/-- The reference's gate: the bit "d is positive" as a float. -/
abbrev gate (d : BitVec 32) : EReal := FloatOps.uitofp (F := Ideal) .f32 (IntOp.cmpi .sgt d 0#32)

/-- The gate is 1 for a positive degree and 0 otherwise. -/
theorem gate_eq (d : BitVec 32) : gate d = if 0 < d.toInt then (1 : EReal) else 0 := by
  show (((IntOp.cmpi .sgt d 0#32).toNat : ℝ) : EReal) = _
  have h0 : (0#32 : BitVec 32).toInt = 0 := by decide
  unfold IntOp.cmpi
  simp only [BitVec.slt_eq_decide, h0]
  by_cases h : 0 < d.toInt
  · rw [if_pos h, decide_eq_true h]
    have e1 : (BitVec.ofBool true).toNat = 1 := by decide
    rw [e1]; norm_num
  · rw [if_neg h, decide_eq_false h]
    have e0 : (BitVec.ofBool false).toNat = 0 := by decide
    rw [e0]; norm_num

/-- For a degree that is not negative the start index is the degree itself. -/
theorem startIdx_of_nonneg (d : BitVec 32) (h : 0 ≤ d.toInt) : startIdx d = d := by
  have h0 : (0#32 : BitVec 32).toInt = 0 := by decide
  have e : IntOp.cmpi .slt d 0#32 = 0#1 := by
    unfold IntOp.cmpi
    simp only [BitVec.slt_eq_decide, h0]
    rw [decide_eq_false (by omega)]
    rfl
  rw [startIdx, e]
  exact ValueIdx.select_zero _ _

/-- For a positive degree the start index clamped into [0, 511] is the clip. -/
theorem clamp_of_pos (d : BitVec 32) (h : 0 < d.toInt) : min (startIdx d).toInt.toNat 511 = (clip d).toNat := by
  rw [startIdx_of_nonneg d (by omega)]
  have := clip_of_pos d h
  omega

/-- THE REFERENCE'S ENTRY: for a table column T with T(0) = 0, the column at the clamped start index times the gate is
    the column at the clip, for every degree. The clamped index is taken as any n equal to min(start, 511). -/
theorem ref_entry (T : Fin 512 → EReal) (hT : T ⟨0, by decide⟩ = 0) (d : BitVec 32) (n : Fin 512)
    (hn : n.val = min (startIdx d).toInt.toNat 511) :
    T n * gate d = T ⟨(clip d).toNat, clip_lt d⟩ := by
  rw [gate_eq]
  by_cases h : 0 < d.toInt
  · rw [if_pos h, mul_one]
    congr 1
    exact Fin.ext (hn.trans (clamp_of_pos d h))
  · rw [if_neg h, mul_zero]
    have e : (⟨(clip d).toNat, clip_lt d⟩ : Fin 512) = ⟨0, by decide⟩ := Fin.ext (clip_of_nonpos d (by omega))
    rw [e, hT]

/-- THE TWO SIDES MEET: the kernel's contraction and the reference's gated clamped read are equal. -/
theorem kernel_entry_eq_ref_entry (T : Fin 512 → EReal) (hT : T ⟨0, by decide⟩ = 0) (d : BitVec 32) (n : Fin 512)
    (hn : n.val = min (startIdx d).toInt.toNat 511) :
    ∑ k : Fin 512, FloatOps.sitofp (F := Ideal) .f32 ((IntOp.cmpi .eq (clip d) (BitVec.ofNat 32 k.val)).setWidth 32) * T k
      = T n * gate d := by
  rw [kernel_entry, ref_entry T hT d n hn]

end Cert.Lookup

end
-- ==== Proof.RefOut2.lean ====
/-
  THE REFERENCE'S RESULT TERM READ AT AN INDEX.

  The reference's result is (x + gather(tin, start(din)) · gate(din)) + gather(tout, start(dout)) · gate(dout), where
  start(d) = d + 512 if d < 0 else d as a [100000,1] array of start indices, the gather reads table row
  clamp(start, 0, 511), and gate(d) is the bit d > 0 converted to a float and broadcast along the row.
  At the extended reals, read at (p, q): x(p,q) + tin(clamp(start(din p)), q) · gate(din p) + the same for tout.
  With row 0 of each table zero this is x(p,q) + tin(c(din p), q) + tout(c(dout p), q), c the clip into [0, 511]; and
  each table term is the contraction of the one-hot row of c(d) with the table column.
-/
import proofs.«124862_j63299228009184_1_alg».proof.Proof.RefOut
import proofs.«124862_j63299228009184_1_alg».proof.Proof.Lookup

noncomputable section

open scoped BigOperators

namespace Cert.ReferenceIdeal.RefOut

open Idealize.ShloMosaic Idealize.ShloMosaic.ValueIdx Cert.ReferenceIdeal
open Cert.ReferenceIdeal.Facts₀ Cert.ReferenceIdeal.Facts

variable [Cert.ReferenceIdeal.Facts]

/-! ## The layout operations of the reference's tail, read at an index -/

section Read
variable {α : Type}

/-- A [100000] array broadcast to [100000,1] reads, at (p, 0), the array at p. -/
theorem bcast_col_apply (c : S100000.Idx → α) (p : Fin 100000) :
    broadcastInDim S100000x1 ![0] bcast_S100000_S100000x1_0 c (ix2 p (0 : Fin 1)) = c (ix1 p) :=
  broadcastInDim_apply _ _ _ _ (ix1 p) (fun a => match a with
    | ⟨0, _⟩ => by
      show p.val = if (100000 : ℕ) = 1 then 0 else p.val
      rw [if_neg (by decide)])

/-- A [100000,1] array broadcast to [100000,256] reads, at (p, q), the array at (p, 0). -/
theorem bcast_row_apply (v : S100000x1.Idx → α) (p : Fin 100000) (q : Fin 256) :
    broadcastInDim S100000x256 ![0, 1] bcast_S100000x1_S100000x256_0_1 v (ix2 p q) = v (ix2 p (0 : Fin 1)) :=
  broadcastInDim_apply _ _ _ _ (ix2 p (0 : Fin 1)) (fun a => match a with
    | ⟨0, _⟩ => by
      show p.val = if (100000 : ℕ) = 1 then 0 else p.val
      rw [if_neg (by decide)]
    | ⟨1, _⟩ => by
      show 0 = if (1 : ℕ) = 1 then 0 else q.val
      rw [if_pos rfl])

/-- THE GATHER READ AT (p, q): rows of a [512,256] operand taken at a [100000,1] array of start indices (one row per
    start index, the whole row of 256) read the operand at row clamp(start index p, 0, 511), column q. -/
theorem gather_row_apply {w : Nat} (T : S512x256.Idx → α) (idx : IVec S100000x1 w) (p : Fin 100000) (q : Fin 256) :
    Host.gather gather_S512x256_S100000x1_S100000x256_1_0_n_n_0_1_1256 T idx (ix2 p q)
      = T (ix2 (⟨min (idx (ix2 p (0 : Fin 1))).toInt.toNat 511, by omega⟩ : Fin 512) q) := by
  unfold Host.gather
  congr 1
  funext a
  refine Fin.ext ?_
  match a with
  | ⟨0, _⟩ =>
    show gather_S512x256_S100000x1_S100000x256_1_0_n_n_0_1_1256.start (ix2 p q) idx 0
      + gather_S512x256_S100000x1_S100000x256_1_0_n_n_0_1_1256.batchCoord (ix2 p q) 0
      + gather_S512x256_S100000x1_S100000x256_1_0_n_n_0_1_1256.offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x256_S100000x1_S100000x256_1_0_n_n_0_1_1256.startIndexMap from
      List.mem_singleton.mpr rfl)]
    have hsi : gather_S512x256_S100000x1_S100000x256_1_0_n_n_0_1_1256.siIdx (ix2 p q)
        ⟨List.idxOf (0 : Fin 2) gather_S512x256_S100000x1_S100000x256_1_0_n_n_0_1_1256.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S512x256_S100000x1_S100000x256_1_0_n_n_0_1_1256.start (ix2 p q) idx 1
      + gather_S512x256_S100000x1_S100000x256_1_0_n_n_0_1_1256.batchCoord (ix2 p q) 1
      + gather_S512x256_S100000x1_S100000x256_1_0_n_n_0_1_1256.offCoord (ix2 p q) 1 = q.val
    rw [GatherDims.batchCoord_eq_zero _ _ _ List.not_mem_nil]
    have hs : gather_S512x256_S100000x1_S100000x256_1_0_n_n_0_1_1256.start (ix2 p q) idx 1 = 0 := by
      unfold GatherDims.start
      rw [dif_neg (by decide)]
    have ho : gather_S512x256_S100000x1_S100000x256_1_0_n_n_0_1_1256.offCoord (ix2 p q) 1 = q.val := by
      unfold GatherDims.offCoord
      rw [dif_pos (by decide)]
      rfl
    rw [hs, ho]
    omega

/-- The same with the clamped row named: any n whose value is clamp(start index p, 0, 511). -/
theorem gather_row_apply_of_eq {w : Nat} (T : S512x256.Idx → α) (idx : IVec S100000x1 w) (p : Fin 100000) (q : Fin 256)
    (n : Fin 512) (hn : n.val = min (idx (ix2 p (0 : Fin 1))).toInt.toNat 511) :
    Host.gather gather_S512x256_S100000x1_S100000x256_1_0_n_n_0_1_1256 T idx (ix2 p q) = T (ix2 n q) := by
  rw [gather_row_apply]
  congr 2
  exact Fin.ext hn.symm

end Read

/-! ## The reference's result at an index, over the extended reals -/

open Cert.Lookup

/-- The start indices at (p, 0): the scalar start index of the degree at p. -/
theorem startV_apply (d : IVec S100000 32) (p : Fin 100000) :
    startV d (ix2 p (0 : Fin 1)) = startIdx (d (ix1 p)) := by
  unfold startV
  rw [bcast_col_apply]
  rfl

/-- The gate at (p, q): the scalar gate of the degree at p. -/
theorem gateV_apply (d : IVec S100000 32) (p : Fin 100000) (q : Fin 256) :
    gateV (F := Ideal) d (ix2 p q) = gate (d (ix1 p)) := by
  unfold gateV
  rw [bcast_row_apply]
  show FloatOps.uitofp (F := Ideal) .f32 (broadcastInDim S100000x1 ![0] bcast_S100000_S100000x1_0
    (cmpi .sgt d (broadcastInDim S100000 ![] bcast_S_S100000 (constantI S_ 32 0#32))) (ix2 p (0 : Fin 1))) = _
  rw [bcast_col_apply]
  rfl

/-- One table's term at (p, q): the table at the clamped start index's row, times the gate. -/
theorem termV_apply (T : FVec Ideal S512x256 .f32) (d : IVec S100000 32) (p : Fin 100000) (q : Fin 256)
    (n : Fin 512) (hn : n.val = min (startIdx (d (ix1 p))).toInt.toNat 511) :
    termV (F := Ideal) T d (ix2 p q) = T (ix2 n q) * gate (d (ix1 p)) := by
  unfold termV
  rw [mulf_apply, gateV_apply, gather_row_apply_of_eq T (startV d) p q n (by rw [startV_apply]; exact hn)]

/-- THE REFERENCE'S RESULT AT (p, q), as the operations read: x plus each table at its clamped start row times its gate. -/
theorem refOut_apply_raw (x : FVec Ideal S100000x256 .f32) (tin tout : FVec Ideal S512x256 .f32) (din dout : IVec S100000 32)
    (p : Fin 100000) (q : Fin 256) (nin nout : Fin 512)
    (hin : nin.val = min (startIdx (din (ix1 p))).toInt.toNat 511)
    (hout : nout.val = min (startIdx (dout (ix1 p))).toInt.toNat 511) :
    refOut (F := Ideal) x tin tout din dout (ix2 p q)
      = (x (ix2 p q) + tin (ix2 nin q) * gate (din (ix1 p))) + tout (ix2 nout q) * gate (dout (ix1 p)) := by
  unfold refOut
  rw [addf_apply, addf_apply, termV_apply tin din p q nin hin, termV_apply tout dout p q nout hout]

/-- The clamped start row of a degree, as an index below 512. -/
def clampRow (d : BitVec 32) : Fin 512 := ⟨min (startIdx d).toInt.toNat 511, by omega⟩

/-- THE REFERENCE'S RESULT AT (p, q) with row 0 of both tables zero: x plus each table at the clipped degree's row. -/
theorem refOut_apply (x : FVec Ideal S100000x256 .f32) (tin tout : FVec Ideal S512x256 .f32) (din dout : IVec S100000 32)
    (h3 : ∀ q : Fin 256, tin (ix2 (0 : Fin 512) q) = (0 : EReal)) (h4 : ∀ q : Fin 256, tout (ix2 (0 : Fin 512) q) = (0 : EReal))
    (p : Fin 100000) (q : Fin 256) :
    refOut (F := Ideal) x tin tout din dout (ix2 p q)
      = (x (ix2 p q) + tin (ix2 (⟨(clip (din (ix1 p))).toNat, clip_lt _⟩ : Fin 512) q))
        + tout (ix2 (⟨(clip (dout (ix1 p))).toNat, clip_lt _⟩ : Fin 512) q) := by
  rw [refOut_apply_raw x tin tout din dout p q (clampRow (din (ix1 p))) (clampRow (dout (ix1 p))) rfl rfl,
    ref_entry (fun k => tin (ix2 k q)) (h3 q) (din (ix1 p)) (clampRow (din (ix1 p))) rfl,
    ref_entry (fun k => tout (ix2 k q)) (h4 q) (dout (ix1 p)) (clampRow (dout (ix1 p))) rfl]

/-- THE REFERENCE'S RESULT AT (p, q) AS THE KERNEL'S SUMS: x plus, for each table, the contraction of the one-hot row of
    the clipped degree with the table's column q. -/
theorem refOut_apply_sum (x : FVec Ideal S100000x256 .f32) (tin tout : FVec Ideal S512x256 .f32) (din dout : IVec S100000 32)
    (h3 : ∀ q : Fin 256, tin (ix2 (0 : Fin 512) q) = (0 : EReal)) (h4 : ∀ q : Fin 256, tout (ix2 (0 : Fin 512) q) = (0 : EReal))
    (p : Fin 100000) (q : Fin 256) :
    refOut (F := Ideal) x tin tout din dout (ix2 p q)
      = (x (ix2 p q)
          + ∑ k : Fin 512, FloatOps.sitofp (F := Ideal) .f32
              ((IntOp.cmpi .eq (clip (din (ix1 p))) (BitVec.ofNat 32 k.val)).setWidth 32) * tin (ix2 k q))
        + ∑ k : Fin 512, FloatOps.sitofp (F := Ideal) .f32
              ((IntOp.cmpi .eq (clip (dout (ix1 p))) (BitVec.ofNat 32 k.val)).setWidth 32) * tout (ix2 k q) := by
  rw [refOut_apply x tin tout din dout h3 h4 p q,
    kernel_entry (fun k => tin (ix2 k q)) (din (ix1 p)), kernel_entry (fun k => tout (ix2 k q)) (dout (ix1 p))]

end Cert.ReferenceIdeal.RefOut

end
-- ==== Proof.Bridge.lean ====
/-
  THE BRIDGE: the kernel's output array is the reference's result term.

  The kernel's output, entry (r, q), is x(r, q) plus, for each table, the sum over k of the one-hot entry of row r's
  clipped degree at k times the table's (k, q); its degree columns are the degree arrays re-laid [100000] → [100000,1],
  so the column's entry (r, 0) is the array's entry r. The reference's result term read at (r, q), row 0 of both tables
  being zero, is the same expression. Hence the two arrays are equal, entry by entry.
-/
import proofs.«124862_j63299228009184_1_alg».proof.Proof.KernelValue
import proofs.«124862_j63299228009184_1_alg».proof.Proof.RefOut2
import Idealize.ShloMosaic.Lib.Pipeline.Value

noncomputable section

open scoped BigOperators

namespace Cert.Bridge

open Idealize.ShloMosaic Idealize.ShloMosaic.ValueIdx

variable [Cert.ReferenceIdeal.Facts]

/-- A [100000] array re-laid as a [100000,1] column reads, at (p, 0), the array at p. -/
theorem col_read {α : Type} (d : Cert.KernelIdeal.S100000.Idx → α) (p : Fin 100000) :
    shapeCast Cert.KernelIdeal.S100000x1 d Cert.KernelIdeal.Gen.shapeCasts_S100000_S100000x1 (ix2 p (0 : Fin 1))
      = d (ix1 p) := by
  refine shapeCast_apply _ _ (ix2 p (0 : Fin 1)) (ix1 p) ?_
  rw [Shape.rowMajor_val_one, Shape.rowMajor_val_two]
  show p.val = p.val * 1 + 0
  omega

/-- THE KERNEL'S OUTPUT ARRAY IS THE REFERENCE'S RESULT TERM, row 0 of both tables being zero. -/
theorem W_eq_refOut (x : FVec Ideal Cert.KernelIdeal.S100000x256 .f32) (tin tout : FVec Ideal Cert.KernelIdeal.S512x256 .f32)
    (din dout : IVec Cert.KernelIdeal.S100000 32)
    (h3 : ∀ q : Fin 256, tin (ix2 (0 : Fin 512) q) = (0 : EReal)) (h4 : ∀ q : Fin 256, tout (ix2 (0 : Fin 512) q) = (0 : EReal)) :
    Cert.KernelIdeal.KValue.W x
        (shapeCast Cert.KernelIdeal.S100000x1 din Cert.KernelIdeal.Gen.shapeCasts_S100000_S100000x1)
        (shapeCast Cert.KernelIdeal.S100000x1 dout Cert.KernelIdeal.Gen.shapeCasts_S100000_S100000x1) tin tout
      = Cert.ReferenceIdeal.RefOut.refOut (F := Ideal) x tin tout din dout := by
  funext i
  obtain ⟨p, q, rfl⟩ : ∃ (p : Fin 100000) (q : Fin 256), i = ix2 p q := ⟨i 0, i 1, eq_ix2 i⟩
  rw [Cert.ReferenceIdeal.RefOut.refOut_apply_sum x tin tout din dout h3 h4 p q]
  unfold Cert.KernelIdeal.KValue.W
  have hr : Cert.KernelIdeal.KValue.row (ix2 p q) = p := Fin.ext rfl
  have hc : Cert.KernelIdeal.KValue.col (ix2 p q) = q := Fin.ext rfl
  simp only [hr, hc, col_read]
  rfl

end Cert.Bridge

end
-- ==== Proof.PreZero.lean ====
/-
  THE PRECONDITION DECODED: row 0 of both tables is zero.

  The printed precondition is a conjunction of six one-bit values, each a reduction by `and` over all axes of a
  comparison array, started from 1. The whole conjunction being 1, each reduction is 1, so each comparison holds at
  every index. The last two compare, element by element, the slice [0:1, 0:256] of a table, reshaped [1,256] → [256],
  with the broadcast constant 0: at the extended reals the ordered equality holds exactly when the two elements are
  equal, the reshape of the slice read at q is the table at (0, q), and the broadcast constant reads the extended real 0.
  Hence table(0, q) = 0 for every q, for both tables.
-/
import proofs.«124862_j63299228009184_1_alg».proof.Proof.Gen.Pre_finite_inputs
import Idealize.ShloMosaic.Lib.ReduceAll
import Idealize.ShloMosaic.Lib.ValueIdx
import Idealize.ShloMosaic.Lib.IdealHost
import Idealize.ShloMosaic.Lib.Pipeline.Value
import Idealize.ShloMosaic.PureOps.Ideal.Laws

noncomputable section

namespace Cert.PreZero

open Idealize.ShloMosaic Idealize.ShloMosaic.ValueIdx Cert.Pre_finite_inputs

variable [Cert.Pre_finite_inputs.Facts]

/-- The scalar shape has one index. -/
instance subsingleton_S_ : Subsingleton S_.Idx := ⟨fun a b => funext fun d => d.elim0⟩

/-- The ordered equality of two extended reals is the bit 1 exactly when they are equal. -/
theorem cmp_oeq_eq_one (x y : EReal) (h : Ideal.cmp .oeq x y = 1#1) : x = y := by
  unfold Ideal.cmp at h
  by_contra hne
  simp [hne] at h

/-- The reshape [1,256] → [256] of the slice [0:1, 0:256] of a [512,256] table, read at q, is the table at (0, q). -/
theorem row0_read (T : FVec Ideal S512x256 .f32) (hs : S512x256.Slices ![0, 0] S1x256) (hc : S1x256.ShapeCasts S256)
    (q : Fin 256) :
    shapeCast S256 (extractStridedSlice S1x256 ![0, 0] T hs) hc (ix1 q) = T (ix2 (0 : Fin 512) q) := by
  refine (shapeCast_apply _ _ (ix1 q) (ix2 (0 : Fin 1) q)
    (by rw [Shape.rowMajor_val_one, Shape.rowMajor_val_two]
        show 0 * 256 + q.val = q.val
        omega)).trans ?_
  exact extractStridedSlice_apply _ _ _ _ (ix2 (0 : Fin 512) q)
    (fun a => match a with
      | ⟨0, _⟩ => by show 0 = 0 + 0; omega
      | ⟨1, _⟩ => by show q.val = 0 + q.val; omega)

/-- The constant 0 broadcast to [256], read anywhere, is the extended real 0. -/
theorem zero_read (hb : S_.BroadcastsInDim S256 (![] : Fin 0 → Fin S256.rank)) (q : Fin 256) :
    broadcastInDim S256 ![] hb (constant (F := Ideal) S_ .f32 0x00000000#32) (ix1 q) = (0 : EReal) := by
  rw [broadcastInDim_scalar_apply]
  exact Ideal.ofBits_zero_f32

/-- One `all(table[0] == 0)` conjunct read back: the table's row 0 is zero. -/
theorem row0_of_all (T : FVec Ideal S512x256 .f32) (hs : S512x256.Slices ![0, 0] S1x256) (hc : S1x256.ShapeCasts S256)
    (hb : S_.BroadcastsInDim S256 (![] : Fin 0 → Fin S256.rank)) (hr : S256.ReducesTo [0] S_) (hu : 0 < S_.numel)
    (e : Host.reduce IntOp.andi
      (cmpf .oeq (shapeCast S256 (extractStridedSlice S1x256 ![0, 0] T hs) hc)
        (broadcastInDim S256 ![] hb (constant (F := Ideal) S_ .f32 0x00000000#32)))
      (constantI S_ 1 1#1) hr hu ix0 = 1#1) (q : Fin 256) : T (ix2 (0 : Fin 512) q) = (0 : EReal) := by
  have hq := Host.reduce_andi_all _ _ hr hu ix0 e (ix1 q)
  rw [cmpf_apply] at hq
  have hx := cmp_oeq_eq_one _ _ hq
  rw [row0_read, zero_read] at hx
  exact hx

/-- THE PRECONDITION DECODED: both tables' row 0 is zero. -/
theorem row0_both (a0 : FVec Ideal S100000x256 .f32) (a1 : FVec Ideal S1600000x128 .f32) (a2 : IVec S2x1600000 32)
    (a3 a4 : FVec Ideal S512x256 .f32)
    (h : Cert.Pre_finite_inputs.fn (F := Ideal) a0 a1 a2 a3 a4 = (fun _ => 1#1)) :
    (∀ q : Fin 256, a3 (ix2 (0 : Fin 512) q) = (0 : EReal)) ∧ (∀ q : Fin 256, a4 (ix2 (0 : Fin 512) q) = (0 : EReal)) := by
  have e := congrFun h ix0
  dsimp only [Cert.Pre_finite_inputs.fn, Cert.Pre_finite_inputs.fn_part1] at e
  obtain ⟨e5, e6⟩ := IntOp.andi_eq_one.1 e
  obtain ⟨-, e5⟩ := IntOp.andi_eq_one.1 e5
  exact ⟨fun q => row0_of_all a3 _ _ _ _ _ e5 q, fun q => row0_of_all a4 _ _ _ _ _ e6 q⟩

/-- Row 0 of the in-degree table is zero. -/
theorem row0_in (a0 : FVec Ideal S100000x256 .f32) (a1 : FVec Ideal S1600000x128 .f32) (a2 : IVec S2x1600000 32)
    (a3 a4 : FVec Ideal S512x256 .f32)
    (h : Cert.Pre_finite_inputs.fn (F := Ideal) a0 a1 a2 a3 a4 = (fun _ => 1#1)) :
    ∀ q : Fin 256, a3 (ix2 (0 : Fin 512) q) = (0 : EReal) := (row0_both a0 a1 a2 a3 a4 h).1

/-- Row 0 of the out-degree table is zero. -/
theorem row0_out (a0 : FVec Ideal S100000x256 .f32) (a1 : FVec Ideal S1600000x128 .f32) (a2 : IVec S2x1600000 32)
    (a3 a4 : FVec Ideal S512x256 .f32)
    (h : Cert.Pre_finite_inputs.fn (F := Ideal) a0 a1 a2 a3 a4 = (fun _ => 1#1)) :
    ∀ q : Fin 256, a4 (ix2 (0 : Fin 512) q) = (0 : EReal) := (row0_both a0 a1 a2 a3 a4 h).2

end Cert.PreZero

end
-- ==== Proof.DegAgree.lean ====
import proofs.«124862_j63299228009184_1_alg».proof.Proof.RefRun2
import proofs.«124862_j63299228009184_1_alg».proof.Proof.KernelRun

/-! Both programs compute the two degree arrays from the edge list by the same host operations.

The computation is cut where the sorted edge list is compared with itself shifted by one: up to there (the
linearised edges, their sort, the flag's first entry, the two shifted slices and their comparison) and from there on
(the flags joined and widened, the floor division and the remainder by the node count, the two scatter-adds).
Each half is the same composition of operations in the two programs, so from equal edge lists the halves'
results agree, and so do the degree arrays. -/

set_option maxRecDepth 65536

noncomputable section

namespace Cert.DegAgree

open Idealize.ShloMosaic Idealize.ShloMosaic.StableHlo Idealize.SL.Sem

/-- The kernel program's first half: up to the comparison of the two shifted slices. -/
abbrev K1 : List (HloOp Cert.KernelIdeal.τ Cert.KernelIdeal.sig (Elt Ideal)) :=
  Cert.KernelIdeal.Gen.hostOps0 ++ Cert.KernelIdeal.Gen.hostOps0_1 ++ Cert.KernelIdeal.Gen.hostOps0_2.take 5
/-- Its second half: from the joined flags to the two degree arrays. -/
abbrev K2 : List (HloOp Cert.KernelIdeal.τ Cert.KernelIdeal.sig (Elt Ideal)) :=
  Cert.KernelIdeal.Gen.hostOps0_2.drop 5 ++ Cert.KernelIdeal.Gen.hostOps0_3 ++ Cert.KernelIdeal.Gen.hostOps0_4
    ++ Cert.KernelIdeal.Gen.hostOps0_5 ++ Cert.KernelIdeal.Gen.hostOps0_6.take 8
theorem K_split : Cert.KernelIdeal.KRun.preOps = K1 ++ K2 := rfl

/-- The reference's two halves. -/
abbrev R1 : List (HloOp Cert.ReferenceIdeal.τ Cert.ReferenceIdeal.sig (Elt Ideal)) :=
  (Cert.ReferenceIdeal.RefRun.opsPre (F := Ideal)).take 14
abbrev R2 : List (HloOp Cert.ReferenceIdeal.τ Cert.ReferenceIdeal.sig (Elt Ideal)) :=
  (Cert.ReferenceIdeal.RefRun.opsPre (F := Ideal)).drop 14
theorem R_split : Cert.ReferenceIdeal.RefRun.opsPre (F := Ideal) = R1 ++ R2 := rfl

attribute [local irreducible] Host.sort Host.scatter Host.divsi Host.remsi concatenate in
set_option maxHeartbeats 4000000 in
/-- First half: from equal edge lists, the sorted list, the flag's first entry and the comparison agree. -/
theorem stage1 (VK : Valuation Cert.KernelIdeal.τ Cert.KernelIdeal.sig (Elt Ideal))
    (VR : Valuation Cert.ReferenceIdeal.τ Cert.ReferenceIdeal.sig (Elt Ideal))
    (h : VR (Proc.devRef .tc Cert.ReferenceIdeal.main_arg2) = VK (Proc.devRef .tc Cert.KernelIdeal.main_arg2)) :
    after R1 VR (Proc.devRef .tc Cert.ReferenceIdeal.main_v7) = after K1 VK (Proc.devRef .tc Cert.KernelIdeal.main_v7)
    ∧ after R1 VR (Proc.devRef .tc Cert.ReferenceIdeal.main_v8) = after K1 VK (Proc.devRef .tc Cert.KernelIdeal.main_v8)
    ∧ after R1 VR (Proc.devRef .tc Cert.ReferenceIdeal.main_v11) = after K1 VK (Proc.devRef .tc Cert.KernelIdeal.main_v11) := by
  refine ⟨?_, ?_, ?_⟩
  all_goals
    simp only [R1, K1, Cert.ReferenceIdeal.RefRun.opsPre, Cert.KernelIdeal.Gen.hostOps0, Cert.KernelIdeal.Gen.hostOps0_1,
      Cert.KernelIdeal.Gen.hostOps0_2, List.take, List.cons_append, List.nil_append]
    after_results_simp
    try rw [h]
    try rfl

attribute [local irreducible] Host.sort Host.scatter Host.divsi Host.remsi concatenate in
set_option maxHeartbeats 4000000 in
/-- Second half: from equal sorted lists, first flags and comparisons, the two degree arrays agree. -/
theorem stage2 (YK : Valuation Cert.KernelIdeal.τ Cert.KernelIdeal.sig (Elt Ideal))
    (YR : Valuation Cert.ReferenceIdeal.τ Cert.ReferenceIdeal.sig (Elt Ideal))
    (h7 : YR (Proc.devRef .tc Cert.ReferenceIdeal.main_v7) = YK (Proc.devRef .tc Cert.KernelIdeal.main_v7))
    (h8 : YR (Proc.devRef .tc Cert.ReferenceIdeal.main_v8) = YK (Proc.devRef .tc Cert.KernelIdeal.main_v8))
    (h11 : YR (Proc.devRef .tc Cert.ReferenceIdeal.main_v11) = YK (Proc.devRef .tc Cert.KernelIdeal.main_v11)) :
    after R2 YR (Proc.devRef .tc Cert.ReferenceIdeal.main_v18) = after K2 YK (Proc.devRef .tc Cert.KernelIdeal.main_v18)
    ∧ after R2 YR (Proc.devRef .tc Cert.ReferenceIdeal.main_v21) = after K2 YK (Proc.devRef .tc Cert.KernelIdeal.main_v21) := by
  refine ⟨?_, ?_⟩
  all_goals
    simp only [R2, K2, Cert.ReferenceIdeal.RefRun.opsPre, Cert.KernelIdeal.Gen.hostOps0_2, Cert.KernelIdeal.Gen.hostOps0_3,
      Cert.KernelIdeal.Gen.hostOps0_4, Cert.KernelIdeal.Gen.hostOps0_5, Cert.KernelIdeal.Gen.hostOps0_6,
      List.take, List.drop, List.cons_append, List.nil_append]
    after_results_simp
    rw [h7, h8, h11]
    try rfl

/-- THE DEGREE ARRAYS AGREE: from equal edge lists the reference's and the kernel program's host computations
    end with equal in-degrees and equal out-degrees. -/
theorem deg_agree (VK : Valuation Cert.KernelIdeal.τ Cert.KernelIdeal.sig (Elt Ideal))
    (VR : Valuation Cert.ReferenceIdeal.τ Cert.ReferenceIdeal.sig (Elt Ideal))
    (h : VR (Proc.devRef .tc Cert.ReferenceIdeal.main_arg2) = VK (Proc.devRef .tc Cert.KernelIdeal.main_arg2)) :
    after (Cert.ReferenceIdeal.RefRun.opsPre (F := Ideal)) VR (Proc.devRef .tc Cert.ReferenceIdeal.main_v18)
        = after Cert.KernelIdeal.KRun.preOps VK (Proc.devRef .tc Cert.KernelIdeal.main_v18)
    ∧ after (Cert.ReferenceIdeal.RefRun.opsPre (F := Ideal)) VR (Proc.devRef .tc Cert.ReferenceIdeal.main_v21)
        = after Cert.KernelIdeal.KRun.preOps VK (Proc.devRef .tc Cert.KernelIdeal.main_v21) := by
  obtain ⟨h7, h8, h11⟩ := stage1 VK VR h
  rw [R_split, K_split, Cert.ReferenceIdeal.RefRun.after_app, Cert.KernelIdeal.KRun.after_app]
  exact stage2 _ _ h7 h8 h11

end Cert.DegAgree

end
-- ==== Proof.lean ====
/- The certificate's claim, assembled.

   Both programs first compute, from the edge list, the in-degree and the out-degree of every node by the same host
   operations. The kernel then adds to each row of `x` one row of each of two `512 × 256` tables, chosen by that
   node's degree clipped into `[0, 511]`: it multiplies a zero-one row (one at the clipped degree) into the table. The
   reference gathers the table's row at the degree (the gather clamps its start index into the table) and multiplies
   it by one if the degree is positive and by zero otherwise. The precondition says every float input is finite and
   row zero of both tables is zero; under it the two agree for every 32-bit degree: at most zero, both add zero;
   from 1 to 511, both add that row; above, both add row 511.

   The three frames are the generated frame proofs of the two kernel programs and the reference's run read at its
   arguments; no ideal-pass rewrite was applied, so the idealization claim is trivial; the value claim is the
   kernel program's run read at its results, the reference's run read at its results, the agreement of the two
   degree computations, and the entry-by-entry law above. -/
import proofs.«124862_j63299228009184_1_alg».proof.Defs
import proofs.«124862_j63299228009184_1_alg».proof.Proof.Gen.Kernel
import proofs.«124862_j63299228009184_1_alg».proof.Proof.Gen.Kernel.Skeleton
import proofs.«124862_j63299228009184_1_alg».proof.Proof.Gen.Kernel.Launch
import proofs.«124862_j63299228009184_1_alg».proof.Proof.Gen.Kernel.Points
import proofs.«124862_j63299228009184_1_alg».proof.Proof.Gen.Kernel.Frame
import proofs.«124862_j63299228009184_1_alg».proof.Proof.Gen.KernelIdeal
import proofs.«124862_j63299228009184_1_alg».proof.Proof.Gen.KernelIdeal.Skeleton
import proofs.«124862_j63299228009184_1_alg».proof.Proof.Gen.KernelIdeal.Launch
import proofs.«124862_j63299228009184_1_alg».proof.Proof.Gen.KernelIdeal.Points
import proofs.«124862_j63299228009184_1_alg».proof.Proof.Gen.KernelIdeal.Frame
import proofs.«124862_j63299228009184_1_alg».proof.Proof.Gen.ReferenceIdeal
import proofs.«124862_j63299228009184_1_alg».proof.Proof.Gen.Pre_finite_inputs
import proofs.«124862_j63299228009184_1_alg».proof.Proof.KernelRun
import proofs.«124862_j63299228009184_1_alg».proof.Proof.RefRun3
import proofs.«124862_j63299228009184_1_alg».proof.Proof.Bridge
import proofs.«124862_j63299228009184_1_alg».proof.Proof.PreZero
import proofs.«124862_j63299228009184_1_alg».proof.Proof.DegAgree
import Idealize.ShloMosaic.Adequacy
import Idealize.ShloMosaic.Init

noncomputable section

namespace Cert.Proof

open Idealize.ShloMosaic Idealize.ShloMosaic.StableHlo Idealize.SL.Sem

/-- The reference runs and leaves its arguments as launched: its run read at the five argument arrays. -/
theorem frame_ref : Cert.frame_ReferenceIdeal := by
  intro m ρ _
  exact (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _)⟩)
    (Cert.ReferenceIdeal.RefRun.run_main (F := Ideal) m ρ)

/-- The two idealized programs end with equal results. -/
theorem algebraic : Cert.algebraic_KernelIdeal_ReferenceIdeal := by
  intro m g m' g' hpre hagree
  refine ⟨fun c => Cert.KernelIdeal.KValue.W (m ((c.tc : Thread Cert.KernelIdeal.nD Cert.KernelIdeal.τ).loc Cert.KernelIdeal.main_arg0))
        (shapeCast Cert.KernelIdeal.S100000x1 (Cert.KernelIdeal.KRun.degIn m c) Cert.KernelIdeal.Gen.shapeCasts_S100000_S100000x1)
        (shapeCast Cert.KernelIdeal.S100000x1 (Cert.KernelIdeal.KRun.degOut m c) Cert.KernelIdeal.Gen.shapeCasts_S100000_S100000x1)
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
    fun _ => constantI Cert.KernelIdeal.S_ 32 0#32, Cert.KernelIdeal.KRun.run m g, ?_⟩
  refine (θ_run Cert.ReferenceIdeal.defs _ _).mono
    (fun _ h c => ⟨((h c Cert.ReferenceIdeal.main_v49).trans (Cert.ReferenceIdeal.RefRun.out_eq _)).trans ?_,
      (h c Cert.ReferenceIdeal.main_c_11).trans (Cert.ReferenceIdeal.RefRun.c11_eq _),
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _)⟩)
    (Cert.ReferenceIdeal.RefRun.run_main (F := Ideal) m' g')
  -- row zero of both tables is zero, from the precondition
  have h3 := Cert.PreZero.row0_in _ _ _ _ _ (hpre c)
  have h4 := Cert.PreZero.row0_out _ _ _ _ _ (hpre c)
  -- the two programs' degree arrays agree, the edge lists being equal
  obtain ⟨e18, e21⟩ := Cert.DegAgree.deg_agree (fun b => m (c, b)) (launchContents m' c) (hagree c).2.2.1
  refine Eq.trans ?_ (Cert.Bridge.W_eq_refOut _ _ _ _ _ h3 h4).symm
  have e0 : launchContents m' c (Proc.devRef .tc Cert.ReferenceIdeal.main_arg0)
      = m ((c.tc : Thread Cert.KernelIdeal.nD Cert.KernelIdeal.τ).loc Cert.KernelIdeal.main_arg0) := (hagree c).1
  have e3 : launchContents m' c (Proc.devRef .tc Cert.ReferenceIdeal.main_arg3)
      = m ((c.tc : Thread Cert.KernelIdeal.nD Cert.KernelIdeal.τ).loc Cert.KernelIdeal.main_arg3) := (hagree c).2.2.2.1
  have e4 : launchContents m' c (Proc.devRef .tc Cert.ReferenceIdeal.main_arg4)
      = m ((c.tc : Thread Cert.KernelIdeal.nD Cert.KernelIdeal.τ).loc Cert.KernelIdeal.main_arg4) := (hagree c).2.2.2.2
  rw [e0, e3, e4, e18, e21]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
